-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg4 : FVec F S256x256 .f32) (main_arg5 : FVec F S128x256 .f32) (main_arg6 : FVec F S64x128 .f32) (main_v13 : IVec S_ 1) (main_v16 : IVec S10000x256 1) : IVec S_ 1 :=
  let main_c_5 : IVec S_ 1 := constantI S_ 1 1#1
  let main_v17 : IVec S_ 1 := (fun x v => Host.reduce IntOp.andi x v reducesTo_S10000x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S10000x10000 .f32) (main_arg1 : FVec F S10000x256 .f32) (main_arg2 : FVec F S10000x10000 .f32) (main_arg3 : FVec F S10000x256 .f32) (main_arg4 : FVec F S256x256 .f32) (main_arg5 : FVec F S128x256 .f32) (main_arg6 : FVec F S64x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x256 .f32 := Host.absf main_arg3
  let main_cst_4 : FVec F S_ .f32 := constant S_ .f32 0x7F800000#32
  let main_v15 : FVec F S10000x256 .f32 := broadcastInDim S10000x256 ![] bcast_S_S10000x256 main_cst_4
  let main_v16 : IVec S10000x256 1 := cmpf .olt main_v14 main_v15
  fn_part1 (F := F) main_arg4 main_arg5 main_arg6 main_v13 main_v16
-- ==== Kernel.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S200x10000 : Shape := ⟨2, ![200, 10000]⟩
abbrev S200x256 : Shape := ⟨2, ![200, 256]⟩
abbrev S256x128 : Shape := ⟨2, ![256, 128]⟩
abbrev S10000x128 : Shape := ⟨2, ![10000, 128]⟩
abbrev S400x10000 : Shape := ⟨2, ![400, 10000]⟩
abbrev S400x128 : Shape := ⟨2, ![400, 128]⟩
abbrev S128x64 : Shape := ⟨2, ![128, 64]⟩
abbrev S10000x64 : Shape := ⟨2, ![10000, 64]⟩
abbrev S400x64 : Shape := ⟨2, ![400, 64]⟩

abbrev nBuf : Space → Nat
  | .hbm => 37
  | .vmem => 34
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x10000, .f32⟩
  | .hbm, ⟨3, _⟩ => ⟨S10000x256, .f32⟩
  | .hbm, ⟨4, _⟩ => ⟨S256x256, .f32⟩
  | .hbm, ⟨5, _⟩ => ⟨S128x256, .f32⟩
  | .hbm, ⟨6, _⟩ => ⟨S64x128, .f32⟩
  | .hbm, ⟨7, _⟩ => ⟨S256x256, .f32⟩
  | .hbm, ⟨8, _⟩ => ⟨S10000x256, .f32⟩
  | .hbm, ⟨9, _⟩ => ⟨S10000x256, .bf16⟩
  | .hbm, ⟨10, _⟩ => ⟨S10000x256, .bf16⟩
  | .hbm, ⟨11, _⟩ => ⟨S10000x10000, .bf16⟩
  | .hbm, ⟨12, _⟩ => ⟨S10000x256, .f32⟩
  | .hbm, ⟨13, _⟩ => ⟨S256x128, .f32⟩
  | .hbm, ⟨14, _⟩ => ⟨S10000x128, .f32⟩
  | .hbm, ⟨15, _⟩ => ⟨S10000x128, .bf16⟩
  | .hbm, ⟨16, _⟩ => ⟨S10000x128, .bf16⟩
  | .hbm, ⟨17, _⟩ => ⟨S10000x128, .f32⟩
  | .hbm, ⟨18, _⟩ => ⟨S128x64, .f32⟩
  | .hbm, ⟨19, _⟩ => ⟨S10000x64, .f32⟩
  | .hbm, ⟨20, _⟩ => ⟨S10000x64, .bf16⟩
  | .hbm, ⟨21, _⟩ => ⟨S10000x64, .f32⟩
  | .hbm, ⟨22, _⟩ => ⟨S256x256, .f32⟩
  | .hbm, ⟨23, _⟩ => ⟨S10000x256, .f32⟩
  | .hbm, ⟨24, _⟩ => ⟨S10000x256, .bf16⟩
  | .hbm, ⟨25, _⟩ => ⟨S10000x256, .bf16⟩
  | .hbm, ⟨26, _⟩ => ⟨S10000x10000, .bf16⟩
  | .hbm, ⟨27, _⟩ => ⟨S10000x256, .f32⟩
  | .hbm, ⟨28, _⟩ => ⟨S256x128, .f32⟩
  | .hbm, ⟨29, _⟩ => ⟨S10000x128, .f32⟩
  | .hbm, ⟨30, _⟩ => ⟨S10000x128, .bf16⟩
  | .hbm, ⟨31, _⟩ => ⟨S10000x128, .bf16⟩
  | .hbm, ⟨32, _⟩ => ⟨S10000x128, .f32⟩
  | .hbm, ⟨33, _⟩ => ⟨S128x64, .f32⟩
  | .hbm, ⟨34, _⟩ => ⟨S10000x64, .f32⟩
  | .hbm, ⟨35, _⟩ => ⟨S10000x64, .bf16⟩
  | .hbm, ⟨36, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x256, .bf16⟩
  | .local _ .vmem, ⟨3, _⟩ => ⟨S200x256, .bf16⟩
  | .local _ .vmem, ⟨4, _⟩ => ⟨S200x256, .bf16⟩
  | .local _ .vmem, ⟨5, _⟩ => ⟨S200x10000, .bf16⟩
  | .local _ .vmem, ⟨6, _⟩ => ⟨S200x10000, .bf16⟩
  | .local _ .vmem, ⟨7, _⟩ => ⟨S400x10000, .bf16⟩
  | .local _ .vmem, ⟨8, _⟩ => ⟨S400x10000, .bf16⟩
  | .local _ .vmem, ⟨9, _⟩ => ⟨S10000x128, .bf16⟩
  | .local _ .vmem, ⟨10, _⟩ => ⟨S400x128, .bf16⟩
  | .local _ .vmem, ⟨11, _⟩ => ⟨S400x128, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S400x64, .f32⟩
  | .local _ .vmem, ⟨16, _⟩ => ⟨S400x64, .f32⟩
  | .local _ .vmem, ⟨17, _⟩ => ⟨S200x10000, .f32⟩
  | .local _ .vmem, ⟨18, _⟩ => ⟨S200x10000, .f32⟩
  | .local _ .vmem, ⟨19, _⟩ => ⟨S10000x256, .bf16⟩
  | .local _ .vmem, ⟨20, _⟩ => ⟨S200x256, .bf16⟩
  | .local _ .vmem, ⟨21, _⟩ => ⟨S200x256, .bf16⟩
  | .local _ .vmem, ⟨22, _⟩ => ⟨S200x10000, .bf16⟩
  | .local _ .vmem, ⟨23, _⟩ => ⟨S200x10000, .bf16⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S400x128, .bf16⟩
  | .local _ .vmem, ⟨28, _⟩ => ⟨S400x128, .bf16⟩
  | .local _ .vmem, ⟨29, _⟩ => ⟨S400x10000, .bf16⟩
  | .local _ .vmem, ⟨30, _⟩ => ⟨S400x10000, .bf16⟩
  | .local _ .vmem, ⟨31, _⟩ => ⟨S10000x64, .bf16⟩
  | .local _ .vmem, ⟨32, _⟩ => ⟨S400x64, .f32⟩
  | .local _ .vmem, ⟨33, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S200x10000 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  transposes_S256x256_S256x256_1_0 : S256x256.Transposes [1, 0] S256x256
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  transposes_S128x256_S256x128_1_0 : S128x256.Transposes [1, 0] S256x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  transposes_S64x128_S128x64_1_0 : S64x128.Transposes [1, 0] S128x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x64_S400x64_0_0 : ∀ a, (![0, 0] : Fin 2 → Nat) a + S400x64.size a ≤ S400x64.size a
  h_S400x64 : 0 < S400x64.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .bf16 = 32 ∨ (Rect.block (s := S10000x256) S200x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .bf16 = 32 ∨ (Rect.block (s := S10000x10000) S200x10000.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x256.size a ≤ S10000x256.size a
  hwx3_2 : ∀ i : grid3.Coords, EltTy.bits .bf16 = 32 ∨ (Rect.block (s := S10000x256) S200x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x10000.size a ≤ S10000x10000.size a
  hwx3_3 : ∀ i : grid3.Coords, EltTy.bits .bf16 = 32 ∨ (Rect.block (s := S10000x10000) S200x10000.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x128.size a ≤ S10000x128.size a
  hwx4_2 : ∀ i : grid4.Coords, EltTy.bits .bf16 = 32 ∨ (Rect.block (s := S10000x128) S400x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .bf16 = 32 ∨ (Rect.block (s := S10000x64) S10000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x64.size a ≤ S10000x64.size a
  hwx5_2 : ∀ i : grid5.Coords, EltTy.bits .f32 = 32 ∨ (Rect.block (s := S10000x64) S400x64.size (cc5_transform_2 i) (hinb5_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S200x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17_0) S200x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17_1) S200x10000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v17_1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S400x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v17_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S_ : Shape := ⟨0, ![]⟩
abbrev S256x128 : Shape := ⟨2, ![256, 128]⟩
abbrev S10000x128 : Shape := ⟨2, ![10000, 128]⟩
abbrev S128x64 : Shape := ⟨2, ![128, 64]⟩
abbrev S10000x64 : Shape := ⟨2, ![10000, 64]⟩

abbrev nBuf : Space → Nat
  | .hbm => 37
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x10000, .f32⟩
  | .hbm, ⟨3, _⟩ => ⟨S10000x256, .f32⟩
  | .hbm, ⟨4, _⟩ => ⟨S256x256, .f32⟩
  | .hbm, ⟨5, _⟩ => ⟨S128x256, .f32⟩
  | .hbm, ⟨6, _⟩ => ⟨S64x128, .f32⟩
  | .hbm, ⟨7, _⟩ => ⟨S10000x256, .f32⟩
  | .hbm, ⟨8, _⟩ => ⟨S256x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S256x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S128x64, .f32⟩
  | .hbm, ⟨21, _⟩ => ⟨S10000x64, .f32⟩
  | .hbm, ⟨22, _⟩ => ⟨S10000x256, .f32⟩
  | .hbm, ⟨23, _⟩ => ⟨S256x256, .f32⟩
  | .hbm, ⟨24, _⟩ => ⟨S10000x256, .f32⟩
  | .hbm, ⟨25, _⟩ => ⟨S_, .f32⟩
  | .hbm, ⟨26, _⟩ => ⟨S10000x256, .f32⟩
  | .hbm, ⟨27, _⟩ => ⟨S10000x256, .f32⟩
  | .hbm, ⟨28, _⟩ => ⟨S10000x256, .f32⟩
  | .hbm, ⟨29, _⟩ => ⟨S256x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S128x64, .f32⟩
  | .hbm, ⟨36, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call3_cst : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  transposes_S256x256_S256x256_1_0 : S256x256.Transposes [1, 0] S256x256
  bcast_S_S10000x256 : S_.BroadcastsInDim S10000x256 (![] : Fin 0 → Fin S10000x256.rank)
  transposes_S128x256_S256x128_1_0 : S128x256.Transposes [1, 0] S256x128
  bcast_S_S10000x128 : S_.BroadcastsInDim S10000x128 (![] : Fin 0 → Fin S10000x128.rank)
  transposes_S64x128_S128x64_1_0 : S64x128.Transposes [1, 0] S128x64
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.LibFinite.lean ====
/-
  Real-valued entries of extended-real arrays.

  The ideal reading of a float program computes on the extended reals, where algebraic laws
  such as a * (b - c) = a * b - a * c fail at the infinities. This file states when an
  extended real is a real number (IsReal), a real number that is not negative (IsNonneg) or
  a positive real number (IsPos), shows that these are kept by the arithmetic of the ideal
  instance, and lifts them to arrays: every elementwise, layout, gather, scatter-add,
  reduce-add, dot-product, quotient and reciprocal-square-root operation of the host maps
  arrays of real numbers to arrays of real numbers, under the side conditions stated.
-/
import Idealize.ShloMosaic.PureOps.Ideal.Laws
import Idealize.ShloMosaic.Lib.IdealHost

namespace Cert.LibFinite

open Idealize.ShloMosaic
open scoped BigOperators

/-! ## Scalars -/

/-- An extended real that is a real number: neither infinity. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

/-- A real number, read as an extended real, is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- Being a real number is being neither infinity. -/
theorem isReal_iff {x : EReal} : IsReal x ↔ x ≠ ⊥ ∧ x ≠ ⊤ :=
  ⟨fun h => ⟨h.ne_bot, h.ne_top⟩, fun h => isReal_of_ne h.1 h.2⟩

/-- A real number that is not negative is a real number. -/
theorem IsNonneg.isReal {x : EReal} (h : IsNonneg x) : IsReal x := by
  obtain ⟨r, _, rfl⟩ := h; exact ⟨r, rfl⟩

/-- A positive real number is not negative. -/
theorem IsPos.isNonneg {x : EReal} (h : IsPos x) : IsNonneg x := by
  obtain ⟨r, hr, rfl⟩ := h; exact ⟨r, hr.le, rfl⟩

/-- A positive real number is a real number. -/
theorem IsPos.isReal {x : EReal} (h : IsPos x) : IsReal x := h.isNonneg.isReal

/-- A real number that is not negative is at least zero in the order of the extended reals. -/
theorem IsNonneg.nonneg {x : EReal} (h : IsNonneg x) : 0 ≤ x := by
  obtain ⟨r, hr, rfl⟩ := h; exact EReal.coe_nonneg.2 hr

/-- A positive real number is above zero in the order of the extended reals. -/
theorem IsPos.pos {x : EReal} (h : IsPos x) : 0 < x := by
  obtain ⟨r, hr, rfl⟩ := h; exact EReal.coe_pos.2 hr

/-- A positive real number is not zero. -/
theorem IsPos.ne_zero {x : EReal} (h : IsPos x) : x ≠ 0 := h.pos.ne'

/-- A real number above zero in the order of the extended reals is a positive real number. -/
theorem IsReal.isPos {x : EReal} (h : IsReal x) (hx : 0 < x) : IsPos x := by
  obtain ⟨r, rfl⟩ := h; exact ⟨r, EReal.coe_pos.1 hx, rfl⟩

/-- A real number at least zero in the order of the extended reals is a real number that is not negative. -/
theorem IsReal.isNonneg {x : EReal} (h : IsReal x) (hx : 0 ≤ x) : IsNonneg x := by
  obtain ⟨r, rfl⟩ := h; exact ⟨r, EReal.coe_nonneg.1 hx, rfl⟩

/-- Zero is a real number that is not negative. -/
theorem isNonneg_zero : IsNonneg 0 := ⟨0, le_rfl, rfl⟩

/-- One is a positive real number. -/
theorem isPos_one : IsPos 1 := ⟨1, one_pos, rfl⟩

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real number is a real number. -/
theorem IsReal.neg {x : EReal} (hx : IsReal x) : IsReal (-x) := by
  obtain ⟨a, rfl⟩ := hx; exact ⟨-a, (EReal.coe_neg a).symm⟩

/-- The difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is a real number. -/
theorem IsReal.max {x y : EReal} (hx : IsReal x) (hy : IsReal y) : IsReal (Max.max x y) := by
  rcases max_choice x y with h | h <;> rw [h] <;> assumption

/-- The lesser of two real numbers is a real number. -/
theorem IsReal.min {x y : EReal} (hx : IsReal x) (hy : IsReal y) : IsReal (Min.min x y) := by
  rcases min_choice x y with h | h <;> rw [h] <;> assumption

/-- The greater of a real number and a real number that is not negative is not negative. -/
theorem IsReal.max_nonneg {x y : EReal} (hx : IsReal x) (hy : IsNonneg y) : IsNonneg (Max.max x y) :=
  (IsReal.max hx hy.isReal).isNonneg (le_trans hy.nonneg (le_max_right x y))

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of two real numbers that are not negative is not negative. -/
theorem IsNonneg.add {x y : EReal} (hx : IsNonneg x) (hy : IsNonneg y) : IsNonneg (x + y) :=
  (hx.isReal.add hy.isReal).isNonneg (add_nonneg hx.nonneg hy.nonneg)

/-- A real number that is not negative plus a positive real number is a positive real number. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The product of two real numbers that are not negative is not negative. -/
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

/-- The product of two positive real numbers is a positive real number. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- The square of a real number is a real number that is not negative. -/
theorem IsReal.mul_self {x : EReal} (hx : IsReal x) : IsNonneg (x * x) := by
  obtain ⟨a, rfl⟩ := hx; exact ⟨a * a, mul_self_nonneg a, (EReal.coe_mul a a).symm⟩

/-- A finite sum of real numbers that are not negative is a real number that is not negative. -/
theorem isNonneg_sum {ι : Type} (s : Finset ι) (f : ι → EReal) (h : ∀ i ∈ s, IsNonneg (f i)) :
    IsNonneg (∑ i ∈ s, f i) :=
  (isReal_sum s f fun i hi => (h i hi).isReal).isNonneg (Finset.sum_nonneg fun i hi => (h i hi).nonneg)

/-- The ideal quotient of a real number by a real number that is not zero is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- The ideal quotient of a real number that is not negative by a positive real number is not negative. -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne']
  exact IsNonneg.mul ⟨a, ha, rfl⟩ ⟨1 / b, by positivity, rfl⟩

/-- The ideal quotient of two positive real numbers is a positive real number. -/
theorem IsPos.div {x y : EReal} (hx : IsPos x) (hy : IsPos y) : IsPos (Ideal.div x y) := by
  obtain ⟨a, ha, rfl⟩ := hx; obtain ⟨b, hb, rfl⟩ := hy
  rw [Ideal.div_coe hb.ne']
  exact IsPos.mul ⟨a, ha, rfl⟩ ⟨1 / b, by positivity, rfl⟩

/-- The ideal reciprocal square root of a positive real number is a positive real number. -/
theorem IsPos.rsqrt {x : EReal} (hx : IsPos x) : IsPos (Ideal.rsqrt x) := by
  obtain ⟨a, ha, rfl⟩ := hx
  rw [Ideal.rsqrt_coe, if_neg (not_lt.2 ha.le), if_neg ha.ne']
  exact ⟨(Real.sqrt a)⁻¹, inv_pos.2 (Real.sqrt_pos.2 ha), rfl⟩

/-- The affine form of a normalisation: over the real numbers, scaling the centred value and shifting is
    one multiplication and one addition. It fails at the infinities, hence the hypotheses. -/
theorem scale_shift_eq {g h m s b : EReal} (hg : IsReal g) (hh : IsReal h) (hm : IsReal m) (hs : IsReal s)
    (hb : IsReal b) : g * (h - m) * s + b = h * (g * s) + (b - (g * m) * s) := by
  obtain ⟨g, rfl⟩ := hg; obtain ⟨h, rfl⟩ := hh; obtain ⟨m, rfl⟩ := hm; obtain ⟨s, rfl⟩ := hs
  obtain ⟨b, rfl⟩ := hb
  simp only [← EReal.coe_sub, ← EReal.coe_mul, ← EReal.coe_add]
  exact congrArg _ (by ring)

/-! ## Arrays -/

/-- Every entry of a family of extended reals has the property P. -/
def All {ι : Type} (P : EReal → Prop) (f : ι → EReal) : Prop := ∀ i, P (f i)

/-- Every entry of the family is a real number. -/
abbrev AllReal {ι : Type} (f : ι → EReal) : Prop := All IsReal f

/-- Every entry of the family is a real number that is not negative. -/
abbrev AllNonneg {ι : Type} (f : ι → EReal) : Prop := All IsNonneg f

/-- Every entry of the family is a positive real number. -/
abbrev AllPos {ι : Type} (f : ι → EReal) : Prop := All IsPos f

/-- A property that implies another, entry by entry. -/
theorem All.mono {ι : Type} {P Q : EReal → Prop} (h : ∀ x, P x → Q x) {f : ι → EReal} (hf : All P f) : All Q f :=
  fun i => h _ (hf i)

/-- Positive real entries are real entries. -/
theorem allReal_of_allPos {ι : Type} {f : ι → EReal} (hf : AllPos f) : AllReal f := hf.mono fun _ => IsPos.isReal

/-- Real entries that are not negative are real entries. -/
theorem allReal_of_allNonneg {ι : Type} {f : ι → EReal} (hf : AllNonneg f) : AllReal f :=
  hf.mono fun _ => IsNonneg.isReal

/-- Positive real entries are not negative. -/
theorem allNonneg_of_allPos {ι : Type} {f : ι → EReal} (hf : AllPos f) : AllNonneg f :=
  hf.mono fun _ => IsPos.isNonneg

/-- Reading a family through any map of indices keeps a property of all its entries. -/
theorem All.comp {ι κ : Type} {P : EReal → Prop} {f : ι → EReal} (hf : All P f) (g : κ → ι) :
    All P (fun j => f (g j)) := fun j => hf (g j)

section Arrays
variable {s t : Shape} {φ : FTy} {P : EReal → Prop}

/-! ### Constants and layout operations: every entry of the result is an entry of the operand -/

/-- A splat constant has the property of the value its bit pattern denotes. -/
theorem all_constant {b : BitVec φ.bits} (hb : P (Ideal.ofBits φ b)) : All P (constant (F := Ideal) s φ b) :=
  fun _ => hb

/-- A broadcast reads entries of its operand. -/
theorem all_broadcastInDim {dims : Fin s.rank → Fin t.rank} {h : s.BroadcastsInDim t dims} {x : s.Idx → EReal}
    (hx : All P x) : All P (broadcastInDim t dims h x) := fun _ => hx _

/-- A reshape reads entries of its operand. -/
theorem all_shapeCast {h : s.ShapeCasts t} {x : s.Idx → EReal} (hx : All P x) : All P (shapeCast t x h) :=
  fun _ => hx _

/-- A slice reads entries of its operand. -/
theorem all_extractStridedSlice {off : Fin s.rank → Nat} {h : s.Slices off t} {x : s.Idx → EReal} (hx : All P x) :
    All P (extractStridedSlice t off x h) := fun _ => hx _

/-- A gather reads entries of its operand, whatever the indices are. -/
theorem all_gather {si : Shape} {w : Nat} {d : GatherDims s si t} {x : s.Idx → EReal} {idx : IVec si w}
    (hx : All P x) : All P (Host.gather d x idx) := fun _ => hx _

/-- A select whose two branches have the property where they are chosen has it everywhere. -/
theorem all_select_of {c : IVec s 1} {a b : s.Idx → EReal} (ha : ∀ i, c i = 1#1 → P (a i))
    (hb : ∀ i, c i ≠ 1#1 → P (b i)) : All P (select c a b) := by
  intro i
  show P (if c i = 1 then a i else b i)
  split
  · exact ha i ‹_›
  · exact hb i ‹_›

/-- A select between two arrays with the property has it. -/
theorem all_select {c : IVec s 1} {a b : s.Idx → EReal} (ha : All P a) (hb : All P b) : All P (select c a b) :=
  all_select_of (fun i _ => ha i) (fun i _ => hb i)

/-! ### Comparisons read back -/

/-- The ordered comparison greater-than answers 1 exactly when the order says so. -/
theorem cmpf_ogt_eq_one_iff {x y : Ideal φ} : FloatOps.cmpf (F := Ideal) .ogt x y = 1#1 ↔ y < x := by
  rw [Ideal.cmpf_def]; unfold Ideal.cmp
  by_cases h : y < x <;> simp [h]

/-- The ordered comparison less-than answers 1 exactly when the order says so. -/
theorem cmpf_olt_eq_one_iff {x y : Ideal φ} : FloatOps.cmpf (F := Ideal) .olt x y = 1#1 ↔ x < y := by
  rw [Ideal.cmpf_def]; unfold Ideal.cmp
  by_cases h : x < y <;> simp [h]

/-- An extended real whose absolute value is below the upper infinity is a real number. -/
theorem isReal_of_abs_lt_top {x : EReal} (h : Max.max x (-x) < ⊤) : IsReal x := by
  refine isReal_of_ne ?_ ?_
  · rintro rfl; simp at h
  · rintro rfl; simp at h

/-- The finiteness test abs x < inf, answered 1 at every index, says every entry is a real number. -/
theorem allReal_of_abs_lt {x inf : FVec Ideal s φ} (hinf : ∀ i, inf i = ⊤)
    (h : ∀ i, cmpf .olt (Host.absf x) inf i = 1#1) : AllReal x := by
  intro i
  have hi : FloatOps.cmpf (F := Ideal) .olt (FloatOps.hostAbsf (x i)) (inf i) = 1#1 := h i
  rw [cmpf_olt_eq_one_iff, hinf i] at hi
  exact isReal_of_abs_lt_top hi

/-! ### Elementwise arithmetic -/

/-- The elementwise sum of arrays of real numbers is an array of real numbers. -/
theorem allReal_addf {x y : FVec Ideal s φ} (hx : AllReal x) (hy : AllReal y) : AllReal (addf (F := Ideal) x y) :=
  fun i => (hx i).add (hy i)

/-- The elementwise difference of arrays of real numbers is an array of real numbers. -/
theorem allReal_subf {x y : FVec Ideal s φ} (hx : AllReal x) (hy : AllReal y) : AllReal (subf (F := Ideal) x y) :=
  fun i => (hx i).sub (hy i)

/-- The elementwise product of arrays of real numbers is an array of real numbers. -/
theorem allReal_mulf {x y : FVec Ideal s φ} (hx : AllReal x) (hy : AllReal y) : AllReal (mulf (F := Ideal) x y) :=
  fun i => (hx i).mul (hy i)

/-- The elementwise maximum of arrays of real numbers is an array of real numbers. -/
theorem allReal_maximumf {x y : FVec Ideal s φ} (hx : AllReal x) (hy : AllReal y) :
    AllReal (maximumf (F := Ideal) x y) := fun i => IsReal.max (hx i) (hy i)

/-- The elementwise minimum of arrays of real numbers is an array of real numbers. -/
theorem allReal_minimumf {x y : FVec Ideal s φ} (hx : AllReal x) (hy : AllReal y) :
    AllReal (minimumf (F := Ideal) x y) := fun i => IsReal.min (hx i) (hy i)

/-- The elementwise maximum of a real array with one that is not negative is not negative: a rectifier's output. -/
theorem allNonneg_maximumf {x y : FVec Ideal s φ} (hx : AllReal x) (hy : AllNonneg y) :
    AllNonneg (maximumf (F := Ideal) x y) := fun i => IsReal.max_nonneg (hx i) (hy i)

/-- The elementwise square of an array of real numbers is an array of real numbers that are not negative. -/
theorem allNonneg_mulf_self {x : FVec Ideal s φ} (hx : AllReal x) : AllNonneg (mulf (F := Ideal) x x) :=
  fun i => (hx i).mul_self

/-- The elementwise sum of arrays of real numbers that are not negative is one. -/
theorem allNonneg_addf {x y : FVec Ideal s φ} (hx : AllNonneg x) (hy : AllNonneg y) :
    AllNonneg (addf (F := Ideal) x y) := fun i => (hx i).add (hy i)

/-- An array of real numbers that are not negative plus an array of positive real numbers is positive:
    a variance plus its stabilising constant. -/
theorem allPos_addf {x y : FVec Ideal s φ} (hx : AllNonneg x) (hy : AllPos y) : AllPos (addf (F := Ideal) x y) :=
  fun i => (hx i).add_pos (hy i)

/-! ### The host's quotient and reciprocal square root -/

/-- The host's quotient of real numbers by real numbers that are not zero is real. -/
theorem allReal_divf {x y : FVec Ideal s φ} (hx : AllReal x) (hy : AllReal y) (h0 : ∀ i, y i ≠ 0) :
    AllReal (Host.divf x y) := fun i => (hx i).div (hy i) (h0 i)

/-- The host's quotient of real numbers by positive real numbers is real: a mean. -/
theorem allReal_divf_pos {x y : FVec Ideal s φ} (hx : AllReal x) (hy : AllPos y) : AllReal (Host.divf x y) :=
  fun i => (hx i).div (hy i).isReal (hy i).ne_zero

/-- The host's quotient of real numbers that are not negative by positive real numbers is not negative: a variance. -/
theorem allNonneg_divf {x y : FVec Ideal s φ} (hx : AllNonneg x) (hy : AllPos y) : AllNonneg (Host.divf x y) :=
  fun i => (hx i).div (hy i)

/-- The host's reciprocal square root at an index is the ideal instance's of the entry. -/
theorem host_rsqrt_apply (x : FVec Ideal s φ) (i : s.Idx) : Host.rsqrt x i = Ideal.rsqrt (x i) := rfl

/-- The host's reciprocal square root of positive real numbers is positive real numbers. -/
theorem allPos_rsqrt {x : FVec Ideal s φ} (hx : AllPos x) : AllPos (Host.rsqrt x) := fun i => (hx i).rsqrt

/-- The guarded reciprocal square root where(x > z, rsqrt x, b) of a real array x, against a threshold z that is not
    negative and with a real fallback b, is real: the reciprocal square root is taken only where x is positive. -/
theorem allReal_select_gt_rsqrt {x z b : FVec Ideal s φ} (hx : AllReal x) (hz : AllNonneg z) (hb : AllReal b) :
    AllReal (select (cmpf .ogt x z) (Host.rsqrt x) b) :=
  all_select_of
    (fun i hc => ((hx i).isPos (lt_of_le_of_lt (hz i).nonneg (cmpf_ogt_eq_one_iff.1 hc))).rsqrt.isReal)
    (fun i _ => hb i)

/-! ### Sums: scatter-add, reduce-add, dot product -/

/-- The host's scatter-add of real updates into a real operand is real, whatever the indices are: each entry is
    the operand's plus a finite sum of updates. -/
theorem allReal_scatterAdd {si u : Shape} {w : Nat} {d : ScatterDims s si u} {x : FVec Ideal s φ} {idx : IVec si w}
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's scatter-add of updates that are not negative into such an operand is not negative. -/
theorem allNonneg_scatterAdd {si u : Shape} {w : Nat} {d : ScatterDims s si u} {x : FVec Ideal s φ} {idx : IVec si w}
    {upd : FVec Ideal u φ} (hx : AllNonneg x) (hu : AllNonneg upd) : AllNonneg (Host.scatterAdd d x idx upd) := by
  intro i
  show IsNonneg (Ideal.hostScatterAdd d x idx upd i)
  unfold Ideal.hostScatterAdd
  exact (hx i).add (isNonneg_sum _ _ fun j _ => hu j)

/-- The host's sum-reduction of a real array from a real initial value is real: each entry is the initial value
    plus a finite sum of entries. -/
theorem allReal_reduceAdd {axes : List (Fin s.rank)} {u : Shape} {x : FVec Ideal s φ} {init : u.Idx → Ideal φ}
    {h : s.ReducesTo axes t} {hu : 0 < u.numel} (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- The host's sum-reduction of an array that is not negative from such an initial value is not negative. -/
theorem allNonneg_reduceAdd {axes : List (Fin s.rank)} {u : Shape} {x : FVec Ideal s φ} {init : u.Idx → Ideal φ}
    {h : s.ReducesTo axes t} {hu : 0 < u.numel} (hx : AllNonneg x) (hi : AllNonneg init) :
    AllNonneg (Host.reduceAdd x init h hu) := by
  intro j
  show IsNonneg (Ideal.hostReduceAdd h x (init (Shape.Idx.first hu)) j)
  unfold Ideal.hostReduceAdd
  exact (hi _).add (isNonneg_sum _ _ fun i _ => hx i)

/-- The host's dot product of real arrays is real, at any dimension numbers: each entry is a finite sum of
    products of entries. -/
theorem allReal_dotGeneral {sl sr so : Shape} {φ₁ φ₂ : FTy} {d : DotDims sl sr so} {prec : Option ContractPrecision}
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Arrays

/-! ## The float literals of a normalisation -/

/-- The f32 pattern 0x46C35000 is the real number 25000. -/
theorem ofBits_f32_25000 : Ideal.ofBits .f32 0x46C35000#32 = ((25000 : ℝ) : EReal) := by
  simp [Ideal.ofBits, Ideal.ieee, -EReal.coe_mul]; norm_num

/-- The f32 pattern 0x47C35000 is the real number 100000. -/
theorem ofBits_f32_100000 : Ideal.ofBits .f32 0x47C35000#32 = ((100000 : ℝ) : EReal) := by
  simp [Ideal.ofBits, Ideal.ieee, -EReal.coe_mul]; norm_num

/-- The f32 pattern 0x3727C5AC, the float nearest to one hundred-thousandth, is the real number 10995116 / 2 ^ 40. -/
theorem ofBits_f32_eps : Ideal.ofBits .f32 0x3727C5AC#32 = ((10995116 * (2 : ℝ) ^ (-40 : ℤ) : ℝ) : EReal) := by
  simp [Ideal.ofBits, Ideal.ieee, -EReal.coe_mul]

/-- The f32 pattern of zero denotes a real number that is not negative. -/
theorem isNonneg_ofBits_f32_zero : IsNonneg (Ideal.ofBits .f32 0x00000000#32) := by
  rw [Ideal.ofBits_zero_f32]; exact isNonneg_zero

/-- The f32 pattern of zero denotes a real number. -/
theorem isReal_ofBits_f32_zero : IsReal (Ideal.ofBits .f32 0x00000000#32) := isNonneg_ofBits_f32_zero.isReal

/-- The f32 pattern of one denotes a positive real number. -/
theorem isPos_ofBits_f32_one : IsPos (Ideal.ofBits .f32 0x3F800000#32) := by
  rw [Ideal.ofBits_one_f32]; exact isPos_one

/-- The f32 pattern of 25000 denotes a positive real number. -/
theorem isPos_ofBits_f32_25000 : IsPos (Ideal.ofBits .f32 0x46C35000#32) :=
  ⟨25000, by norm_num, ofBits_f32_25000⟩

/-- The f32 pattern of 100000 denotes a positive real number. -/
theorem isPos_ofBits_f32_100000 : IsPos (Ideal.ofBits .f32 0x47C35000#32) :=
  ⟨100000, by norm_num, ofBits_f32_100000⟩

/-- The f32 pattern 0x3727C5AC (one hundred-thousandth, rounded) denotes a positive real number. -/
theorem isPos_ofBits_f32_eps : IsPos (Ideal.ofBits .f32 0x3727C5AC#32) :=
  ⟨10995116 * (2 : ℝ) ^ (-40 : ℤ), by positivity, ofBits_f32_eps⟩

/-! ## A closing tactic for operator trees -/

section More
variable {s : Shape} {φ : FTy} {P : EReal → Prop}

/-- A copy has the property of its operand. -/
theorem all_id {x : s.Idx → EReal} (hx : All P x) : All P (id x) := hx

/-- The host's reciprocal square root of positive real numbers is real. -/
theorem allReal_rsqrt {x : FVec Ideal s φ} (hx : AllPos x) : AllReal (Host.rsqrt x) :=
  allReal_of_allPos (allPos_rsqrt hx)

/-- The elementwise product of arrays of real numbers that are not negative is one. -/
theorem allNonneg_mulf {x y : FVec Ideal s φ} (hx : AllNonneg x) (hy : AllNonneg y) :
    AllNonneg (mulf (F := Ideal) x y) := fun i => (hx i).mul (hy i)

/-- The elementwise product of arrays of positive real numbers is one. -/
theorem allPos_mulf {x y : FVec Ideal s φ} (hx : AllPos x) (hy : AllPos y) : AllPos (mulf (F := Ideal) x y) :=
  fun i => (hx i).mul (hy i)

/-- The host's quotient of arrays of positive real numbers is one. -/
theorem allPos_divf {x y : FVec Ideal s φ} (hx : AllPos x) (hy : AllPos y) : AllPos (Host.divf x y) :=
  fun i => (hx i).div (hy i)

end More

/-- Closes a goal AllReal t, AllNonneg t or AllPos t, where t is a tree of the host's operations (elementwise
    arithmetic, rectifier, layout operations, gather, scatter-add, sum-reduction, dot product, quotient by one of
    the positive literals, reciprocal square root of a variance plus its positive constant) over arrays whose
    property is a hypothesis in the context. The rules are chosen by the property asked and the head operation:
    a quotient asks its divisor to be positive, a reciprocal square root asks its operand to be positive, a sum
    is positive when its left term is not negative and its right term is positive, a square is not negative.
    Integer index arrays are arbitrary. -/
macro "all_real" : tactic => `(tactic| with_reducible
  repeat' (first
    | assumption
    | exact isNonneg_ofBits_f32_zero | exact isReal_ofBits_f32_zero
    | exact isPos_ofBits_f32_one | exact isPos_ofBits_f32_one.isNonneg | exact isPos_ofBits_f32_one.isReal
    | exact isPos_ofBits_f32_eps | exact isPos_ofBits_f32_eps.isNonneg | exact isPos_ofBits_f32_eps.isReal
    | exact isPos_ofBits_f32_25000 | exact isPos_ofBits_f32_25000.isNonneg | exact isPos_ofBits_f32_25000.isReal
    | exact isPos_ofBits_f32_100000 | exact isPos_ofBits_f32_100000.isNonneg | exact isPos_ofBits_f32_100000.isReal
    | apply allPos_rsqrt | apply allPos_addf | apply allPos_mulf | apply allPos_divf
    | apply allNonneg_mulf_self | apply allNonneg_mulf | apply allNonneg_addf | apply allNonneg_maximumf
    | apply allNonneg_divf | apply allNonneg_scatterAdd | apply allNonneg_reduceAdd
    | apply allReal_addf | apply allReal_subf | apply allReal_mulf | apply allReal_maximumf | apply allReal_minimumf
    | apply allReal_divf_pos | apply allReal_rsqrt | apply allReal_scatterAdd | apply allReal_reduceAdd
    | apply allReal_dotGeneral | apply allReal_select_gt_rsqrt
    | apply all_constant | apply all_broadcastInDim | apply all_shapeCast | apply all_extractStridedSlice
    | apply all_gather | apply all_id | apply all_select
    | (apply allReal_of_allNonneg; assumption) | (apply allReal_of_allPos; assumption)
    | (apply allNonneg_of_allPos; assumption)))

end Cert.LibFinite
-- ==== Proof.GcnMath.lean ====
/-
  The mathematics of a three-layer graph convolution on the extended reals.

  One layer maps node features H (n rows) to relu ((A · H) · Wᵀ), with A the n × n adjacency matrix and W a weight
  matrix stored (out, in). The product of three matrices can be bracketed either way, A · (H · Wᵀ) or (A · H) · Wᵀ: both
  are the double sum Σ_j Σ_l A[i,j] · H[j,l] · W[q,l]. On the extended reals that needs every entry to be a real number
  (a product distributes over a sum only away from the infinities), so the law is stated for real-valued matrices, and
  the real-valuedness of every intermediate (a finite sum of products of reals; the greater of a real and zero) is carried
  along. `kerBranch` brackets every layer to the right, `refBranch` to the left; `branch_eq` says they agree.
-/
import proofs.«164636_j34187939676601_2_alg».proof.Proof.LibDense
import proofs.«164636_j34187939676601_2_alg».proof.Proof.LibFinite
import Idealize.ShloMosaic.Lib.ValueLayout

noncomputable section

open scoped BigOperators

namespace Cert.Gcn

open Idealize.ShloMosaic Idealize.ShloMosaic.ValueIdx Cert.LibDense Cert.LibFinite

/-- An a × b matrix of extended reals, indexed as the arrays are. -/
abbrev Mat (a b : Nat) : Type := (⟨2, ![a, b]⟩ : Shape).Idx → EReal

/-- The transposed matrix: entry (j, i) is entry (i, j) of the operand. -/
def tr {a b : Nat} (w : Mat a b) : Mat b a := fun i => w (ix2 (i 1) (i 0))

/-- The rectifier, entry by entry: the greater of the entry and zero (zero as the f32 pattern of +0.0 denotes it). -/
def relu {a b : Nat} (x : Mat a b) : Mat a b := fun i => max (x i) (Ideal.ofBits .f32 0x00000000#32)

theorem tr_apply {a b : Nat} (w : Mat a b) (j : Fin b) (i : Fin a) : tr w (ix2 j i) = w (ix2 i j) := rfl

/-- The array operation `transpose` with permutation [1, 0] is `tr`. -/
theorem transpose_eq_tr {a b : Nat} (w : Mat a b) (h : (⟨2, ![a, b]⟩ : Shape).Transposes [1, 0] ⟨2, ![b, a]⟩) :
    transpose ⟨2, ![b, a]⟩ [1, 0] w h = tr w := by
  funext j
  rw [eq_ix2 j]
  exact transpose_ix2_apply w h (j 0) (j 1)

/-! ## Real-valued matrices stay real-valued -/

theorem allReal_tr {a b : Nat} {w : Mat a b} (hw : AllReal w) : AllReal (tr w) := fun i => hw _

theorem allReal_relu {a b : Nat} {x : Mat a b} (hx : AllReal x) : AllReal (relu x) :=
  fun i => IsReal.max (hx i) isReal_ofBits_f32_zero

theorem allReal_denseProd {n k d : Nat} {x : Mat n k} {w : Mat k d} (hx : AllReal x) (hw : AllReal w) :
    AllReal (denseProd x w) := fun i => isReal_sum _ _ fun l _ => (hx _).mul (hw _)

/-! ## The product of three real-valued matrices, bracketed either way -/

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A · (H · W) = (A · H) · W for real-valued A, H, W: both are Σ_j Σ_l A[i,j] · H[j,l] · W[l,q]. -/
theorem denseProd_assoc {n k d e : Nat} (A : Mat n k) (H : Mat k d) (W : Mat d e)
    (hA : AllReal A) (hH : AllReal H) (hW : AllReal W) :
    denseProd A (denseProd H W) = denseProd (denseProd A H) W := by
  choose a ha using hA
  choose h hh using hH
  choose w hw using hW
  funext i
  show (∑ j : Fin k, A (ix2 (i 0) j) * ∑ l : Fin d, H (ix2 j l) * W (ix2 l (i 1)))
    = ∑ l : Fin d, (∑ j : Fin k, A (ix2 (i 0) j) * H (ix2 j l)) * W (ix2 l (i 1))
  simp only [ha, hh, hw, ← EReal.coe_mul, ← coe_sum]
  refine congrArg _ ?_
  simp only [Finset.mul_sum, Finset.sum_mul]
  rw [Finset.sum_comm]
  exact Finset.sum_congr rfl fun l _ => Finset.sum_congr rfl fun j _ => by ring

/-! ## The two bracketings of a three-layer branch -/

variable {n d0 d1 d2 d3 : Nat}

/-- Each layer as relu (A · (H · Wᵀ)): the weight folded into the features first. The last layer has no rectifier. -/
def kerBranch (A : Mat n n) (X : Mat n d0) (W1 : Mat d1 d0) (W2 : Mat d2 d1) (W3 : Mat d3 d2) : Mat n d3 :=
  denseProd A (denseProd (relu (denseProd A (denseProd (relu (denseProd A (denseProd X (tr W1)))) (tr W2)))) (tr W3))

/-- Each layer as relu ((A · H) · Wᵀ): the neighbours summed first. The last layer has no rectifier. -/
def refBranch (A : Mat n n) (X : Mat n d0) (W1 : Mat d1 d0) (W2 : Mat d2 d1) (W3 : Mat d3 d2) : Mat n d3 :=
  denseProd (denseProd A (relu (denseProd (denseProd A (relu (denseProd (denseProd A X) (tr W1)))) (tr W2)))) (tr W3)

/-- On real-valued inputs the two bracketings agree, layer by layer. -/
theorem branch_eq (A : Mat n n) (X : Mat n d0) (W1 : Mat d1 d0) (W2 : Mat d2 d1) (W3 : Mat d3 d2)
    (hA : AllReal A) (hX : AllReal X) (h1 : AllReal W1) (h2 : AllReal W2) (h3 : AllReal W3) :
    kerBranch A X W1 W2 W3 = refBranch A X W1 W2 W3 := by
  unfold kerBranch refBranch
  rw [denseProd_assoc A X (tr W1) hA hX (allReal_tr h1)]
  have hH1 : AllReal (relu (denseProd (denseProd A X) (tr W1))) :=
    allReal_relu (allReal_denseProd (allReal_denseProd hA hX) (allReal_tr h1))
  rw [denseProd_assoc A _ (tr W2) hA hH1 (allReal_tr h2)]
  have hH2 : AllReal (relu (denseProd (denseProd A (relu (denseProd (denseProd A X) (tr W1)))) (tr W2))) :=
    allReal_relu (allReal_denseProd (allReal_denseProd hA hH1) (allReal_tr h2))
  rw [denseProd_assoc A _ (tr W3) hA hH2 (allReal_tr h3)]

end Cert.Gcn

end
-- ==== Proof.Finite.lean ====
/-
  Under the precondition every entry of every input is a real number.

  The precondition is the conjunction, input by input, of "every entry's absolute value is below +∞". An extended real
  whose absolute value is below +∞ is neither infinity, so it is a real number; a conjunction of one-bit words is 1 only
  if each is, and a reduction by "and" is 1 only if every entry is.
-/
import proofs.«164636_j34187939676601_2_alg».proof.Pre_finite_inputs
import proofs.«164636_j34187939676601_2_alg».proof.Proof.Gen.Pre_finite_inputs
import proofs.«164636_j34187939676601_2_alg».proof.Proof.LibFinite
import Idealize.ShloMosaic.Lib.ReduceAll
import Idealize.ShloMosaic.Lib.ValueIdx
import Idealize.ShloMosaic.Lib.Affine

noncomputable section

namespace Cert.Pre_finite_inputs.Hand

open Cert.Pre_finite_inputs Cert.Pre_finite_inputs.Gen Idealize.ShloMosaic Cert.LibFinite

instance : Subsingleton S_.Idx := ⟨fun a b => funext fun d => d.elim0⟩

/-- The f32 pattern 0x7F800000 is +∞. -/
theorem inf_top : Ideal.ofBits .f32 0x7F800000#32 = (⊤ : EReal) := by simp [Ideal.ofBits, Ideal.ieee]

/-- One input's test: if "all |x| < +∞" is 1 then every entry of x is a real number. -/
theorem allReal_of_test {a b : Nat} (x : FVec Ideal ⟨2, ![a, b]⟩ .f32)
    (hb : S_.BroadcastsInDim ⟨2, ![a, b]⟩ (![] : Fin 0 → Fin 2)) (hr : (⟨2, ![a, b]⟩ : Shape).ReducesTo [0, 1] S_)
    (hS : 0 < S_.numel) (j : S_.Idx)
    (e : Host.reduce IntOp.andi (cmpf .olt (Host.absf x) (broadcastInDim ⟨2, ![a, b]⟩ ![] hb (constant S_ .f32 0x7F800000#32)))
      (constantI S_ 1 1#1) hr hS j = 1#1) : AllReal x :=
  allReal_of_abs_lt (fun _ => inf_top) (fun i => Host.reduce_andi_all _ _ hr hS j e i)

/-- The precondition's function answering 1 says every input is real-valued. -/
theorem allReal_of_fn (a0 : FVec Ideal S10000x10000 .f32) (a1 : FVec Ideal S10000x256 .f32) (a2 : FVec Ideal S10000x10000 .f32)
    (a3 : FVec Ideal S10000x256 .f32) (a4 : FVec Ideal S256x256 .f32) (a5 : FVec Ideal S128x256 .f32) (a6 : FVec Ideal S64x128 .f32)
    (h : fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h ValueIdx.ix0
  unfold fn fn_part1 at h0
  dsimp only at h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨allReal_of_test a0 _ _ _ _ e0, allReal_of_test a1 _ _ _ _ e1, allReal_of_test a2 _ _ _ _ e2,
    allReal_of_test a3 _ _ _ _ e3, allReal_of_test a4 _ _ _ _ e4, allReal_of_test a5 _ _ _ _ e5,
    allReal_of_test a6 _ _ _ _ e6⟩

end Cert.Pre_finite_inputs.Hand

end
-- ==== Proof.RefValue.lean ====
/-
  The reference's two results as `refBranch` of its inputs.

  The reference computes each layer as relu ((A · H) · Wᵀ) with the host's contractions; on the extended reals each
  contraction is the dense product, the transposed weight is `tr`, and the rectifier the greater of the entry and zero.
-/
import proofs.«164636_j34187939676601_2_alg».proof.Proof.Gen.ReferenceIdeal.Run
import proofs.«164636_j34187939676601_2_alg».proof.Proof.GcnMath

noncomputable section

namespace Cert.ReferenceIdeal.Hand

open Cert.ReferenceIdeal Cert.ReferenceIdeal.Gen Cert.Gcn Cert.LibDense
open Idealize.ShloMosaic Idealize.ShloMosaic.ValueIdx

theorem dgA256 (l : FVec Ideal S10000x10000 .f32) (r : FVec Ideal S10000x256 .f32) :
    Host.dotGeneral dot_S10000x10000_S10000x256_S10000x256_1_0_0_1_n_n none l r
      = denseProd (n0 := 10000) (nk := 10000) (n1 := 256) l r :=
  dotGeneral_eq dot_S10000x10000_S10000x256_S10000x256_1_0_0_1_n_n rfl rfl rfl rfl (fun _ _ => rfl) (fun _ _ => rfl)
    (φ₁ := .f32) (φ₂ := .f32) none .single l r

theorem dgA128 (l : FVec Ideal S10000x10000 .f32) (r : FVec Ideal S10000x128 .f32) :
    Host.dotGeneral dot_S10000x10000_S10000x128_S10000x128_1_0_0_1_n_n none l r
      = denseProd (n0 := 10000) (nk := 10000) (n1 := 128) l r :=
  dotGeneral_eq dot_S10000x10000_S10000x128_S10000x128_1_0_0_1_n_n rfl rfl rfl rfl (fun _ _ => rfl) (fun _ _ => rfl)
    (φ₁ := .f32) (φ₂ := .f32) none .single l r

theorem dgW1 (l : FVec Ideal S10000x256 .f32) (r : FVec Ideal S256x256 .f32) :
    Host.dotGeneral dot_S10000x256_S256x256_S10000x256_1_0_0_1_n_n none l r
      = denseProd (n0 := 10000) (nk := 256) (n1 := 256) l r :=
  dotGeneral_eq dot_S10000x256_S256x256_S10000x256_1_0_0_1_n_n rfl rfl rfl rfl (fun _ _ => rfl) (fun _ _ => rfl)
    (φ₁ := .f32) (φ₂ := .f32) none .single l r

theorem dgW2 (l : FVec Ideal S10000x256 .f32) (r : FVec Ideal S256x128 .f32) :
    Host.dotGeneral dot_S10000x256_S256x128_S10000x128_1_0_0_1_n_n none l r
      = denseProd (n0 := 10000) (nk := 256) (n1 := 128) l r :=
  dotGeneral_eq dot_S10000x256_S256x128_S10000x128_1_0_0_1_n_n rfl rfl rfl rfl (fun _ _ => rfl) (fun _ _ => rfl)
    (φ₁ := .f32) (φ₂ := .f32) none .single l r

theorem dgW3 (l : FVec Ideal S10000x128 .f32) (r : FVec Ideal S128x64 .f32) :
    Host.dotGeneral dot_S10000x128_S128x64_S10000x64_1_0_0_1_n_n none l r
      = denseProd (n0 := 10000) (nk := 128) (n1 := 64) l r :=
  dotGeneral_eq dot_S10000x128_S128x64_S10000x64_1_0_0_1_n_n rfl rfl rfl rfl (fun _ _ => rfl) (fun _ _ => rfl)
    (φ₁ := .f32) (φ₂ := .f32) none .single l r

/-- The rectifier as the reference writes it: the greater of the entry and a splat zero. -/
theorem relu256 (x : FVec Ideal S10000x256 .f32) :
    maximumf x (broadcastInDim S10000x256 ![] bcast_S_S10000x256 (constant S_ .f32 0x00000000#32)) = relu (a := 10000) (b := 256) x := rfl

theorem relu128 (x : FVec Ideal S10000x128 .f32) :
    maximumf x (broadcastInDim S10000x128 ![] bcast_S_S10000x128 (constant S_ .f32 0x00000000#32)) = relu (a := 10000) (b := 128) x := rfl

/-- One branch of the reference, as its run states it, is `refBranch`. -/
theorem branch_term (A : FVec Ideal S10000x10000 .f32) (X : FVec Ideal S10000x256 .f32) (W1 : FVec Ideal S256x256 .f32)
    (W2 : FVec Ideal S128x256 .f32) (W3 : FVec Ideal S64x128 .f32) :
    Host.dotGeneral dot_S10000x128_S128x64_S10000x64_1_0_0_1_n_n none (Host.dotGeneral dot_S10000x10000_S10000x128_S10000x128_1_0_0_1_n_n none A (maximumf (Host.dotGeneral dot_S10000x256_S256x128_S10000x128_1_0_0_1_n_n none (Host.dotGeneral dot_S10000x10000_S10000x256_S10000x256_1_0_0_1_n_n none A (maximumf (Host.dotGeneral dot_S10000x256_S256x256_S10000x256_1_0_0_1_n_n none (Host.dotGeneral dot_S10000x10000_S10000x256_S10000x256_1_0_0_1_n_n none A X) (transpose S256x256 [1, 0] W1 transposes_S256x256_S256x256_1_0)) (broadcastInDim S10000x256 ![] bcast_S_S10000x256 (constant S_ .f32 0x00000000#32)))) (transpose S256x128 [1, 0] W2 transposes_S128x256_S256x128_1_0)) (broadcastInDim S10000x128 ![] bcast_S_S10000x128 (constant S_ .f32 0x00000000#32)))) (transpose S128x64 [1, 0] W3 transposes_S64x128_S128x64_1_0)
      = refBranch (n := 10000) (d0 := 256) (d1 := 256) (d2 := 128) (d3 := 64) A X W1 W2 W3 := by
  rw [transpose_eq_tr (a := 256) (b := 256) W1, transpose_eq_tr (a := 128) (b := 256) W2, transpose_eq_tr (a := 64) (b := 128) W3]
  rw [dgW3, dgA128, relu128, dgW2, dgA256, relu256, dgW1, dgA256]
  rfl

end Cert.ReferenceIdeal.Hand

end
-- ==== Proof.KernelRun.lean ====
/-
  The idealized kernel's run, with the two result arrays read at the end.

  @main is six kernel launches among stretches of host operations. The contents of every buffer at each boundary
  are a fold from the launch memory (`W0` … `W12` of the frame module: a stretch applies its operations, a launch
  replaces its arrays by what its write-backs leave). Every weakly fair execution terminates, without a fault, in a
  state whose unscoped buffers hold the last boundary's contents `W12`; here that is stated for the two results and
  the seven arguments, the arguments' contents walked back to the launch memory.
-/
import proofs.«164636_j34187939676601_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with each result buffer at the last boundary's contents and
    the arguments as launched. -/
theorem run_fold : θ_run defs (onTc (τ := τ) (main (F := F))) ⟨m, fun _ => 0, ρ⟩ (fun r => ∀ c : Dev nD,
      r.2.mem ((c.tc : Thread nD τ).loc main_v13) = W12 m ρ c (Proc.devRef .tc main_v13)
      ∧ r.2.mem ((c.tc : Thread nD τ).loc main_v27) = W12 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v13 (by decide)),
       h c _ (mem_uc main_v27 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Hand

end
-- ==== Proof.Payloads.lean ====
/-
  What each kernel body stores, at the ideal instance, as a function of the blocks it loads.

  Every body multiplies a slab of rows of the adjacency matrix by the whole folded feature matrix on the matrix unit,
  into a zero accumulator, and stores the product, rectified in the first two layers. On the extended reals a change of
  float format is the identity and the product is the dense product Σ_j a[r, j] · h[j, q]; the rectifier is the greater of
  the entry and zero. The first layer's body also stores the slab itself, narrowed to bf16: the slab, unchanged.
  The host's small products X · Wᵀ between the launches are dense products too.
-/
import proofs.«164636_j34187939676601_2_alg».proof.Proof.Gen.KernelIdeal.Skeleton
import proofs.«164636_j34187939676601_2_alg».proof.Proof.GcnMath
import Idealize.ShloMosaic.Lib.Pipeline.Value

noncomputable section

namespace Cert.KernelIdeal.Hand

open Cert.KernelIdeal Cert.KernelIdeal.Gen Cert.Gcn Cert.LibDense
open Idealize.ShloMosaic Idealize.ShloMosaic.ValueIdx

/-! ## The matrix unit's products -/

theorem mm_200_256 (x : FVec Ideal S200x10000 .bf16) (w : FVec Ideal S10000x256 .bf16) :
    matmul dot_S200x10000_S10000x256_S200x256_1_0_0_1_n_n none x w (constant S200x256 .f32 0x00000000#32)
      = denseProd (n0 := 200) (nk := 10000) (n1 := 256) x w :=
  matmul_zero_eq dot_S200x10000_S10000x256_S200x256_1_0_0_1_n_n rfl rfl rfl rfl (fun _ _ => rfl) (fun _ _ => rfl) none x w

theorem mm_400_128 (x : FVec Ideal S400x10000 .bf16) (w : FVec Ideal S10000x128 .bf16) :
    matmul dot_S400x10000_S10000x128_S400x128_1_0_0_1_n_n none x w (constant S400x128 .f32 0x00000000#32)
      = denseProd (n0 := 400) (nk := 10000) (n1 := 128) x w :=
  matmul_zero_eq dot_S400x10000_S10000x128_S400x128_1_0_0_1_n_n rfl rfl rfl rfl (fun _ _ => rfl) (fun _ _ => rfl) none x w

theorem mm_400_64 (x : FVec Ideal S400x10000 .bf16) (w : FVec Ideal S10000x64 .bf16) :
    matmul dot_S400x10000_S10000x64_S400x64_1_0_0_1_n_n none x w (constant S400x64 .f32 0x00000000#32)
      = denseProd (n0 := 400) (nk := 10000) (n1 := 64) x w :=
  matmul_zero_eq dot_S400x10000_S10000x64_S400x64_1_0_0_1_n_n rfl rfl rfl rfl (fun _ _ => rfl) (fun _ _ => rfl) none x w

/-! ## The stored values -/

/-- Layer 1, the side output: the slab of the adjacency matrix, its format narrowed. -/
theorem pay_copy0 (x0 : Vec Ideal S200x10000 .f32) : k0_pay1 x0 = x0 := rfl

theorem pay_copy3 (x0 : Vec Ideal S200x10000 .f32) : k3_pay1 x0 = x0 := rfl

/-- Layer 1: the rectified product of the slab with the folded features. -/
theorem pay_layer0 (x0 : Vec Ideal S200x10000 .f32) (x1 : Vec Ideal S10000x256 .bf16) :
    k0_pay2 x0 x1 = relu (denseProd (n0 := 200) (nk := 10000) (n1 := 256) x0 x1) := by
  unfold k0_pay2
  first
    | (dsimp only; rw [shapeCast_self, pay_copy0, mm_200_256]; rfl)
    | (simp only [shapeCast_self, pay_copy0, mm_200_256]; rfl)

theorem pay_layer3 (x0 : Vec Ideal S200x10000 .f32) (x1 : Vec Ideal S10000x256 .bf16) :
    k3_pay2 x0 x1 = relu (denseProd (n0 := 200) (nk := 10000) (n1 := 256) x0 x1) := by
  unfold k3_pay2
  first
    | (dsimp only; rw [shapeCast_self, pay_copy3, mm_200_256]; rfl)
    | (simp only [shapeCast_self, pay_copy3, mm_200_256]; rfl)

/-- Layer 2: the rectified product. -/
theorem pay_layer1 (x0 : Vec Ideal S400x10000 .bf16) (x1 : Vec Ideal S10000x128 .bf16) :
    k1_pay1 x0 x1 = relu (denseProd (n0 := 400) (nk := 10000) (n1 := 128) x0 x1) := by
  unfold k1_pay1
  first
    | (dsimp only; rw [shapeCast_self, shapeCast_self, mm_400_128]; rfl)
    | (simp only [shapeCast_self, mm_400_128]; rfl)

theorem pay_layer4 (x0 : Vec Ideal S400x10000 .bf16) (x1 : Vec Ideal S10000x128 .bf16) :
    k4_pay1 x0 x1 = relu (denseProd (n0 := 400) (nk := 10000) (n1 := 128) x0 x1) := by
  unfold k4_pay1
  first
    | (dsimp only; rw [shapeCast_self, shapeCast_self, mm_400_128]; rfl)
    | (simp only [shapeCast_self, mm_400_128]; rfl)

/-- Layer 3: the product, not rectified. -/
theorem pay_layer2 (x0 : Vec Ideal S400x10000 .bf16) (x1 : Vec Ideal S10000x64 .bf16) :
    k2_pay1 x0 x1 = denseProd (n0 := 400) (nk := 10000) (n1 := 64) x0 x1 := by
  unfold k2_pay1
  first
    | (dsimp only; rw [shapeCast_self, shapeCast_self, mm_400_64])
    | (simp only [shapeCast_self, mm_400_64])

theorem pay_layer5 (x0 : Vec Ideal S400x10000 .bf16) (x1 : Vec Ideal S10000x64 .bf16) :
    k5_pay1 x0 x1 = denseProd (n0 := 400) (nk := 10000) (n1 := 64) x0 x1 := by
  unfold k5_pay1
  first
    | (dsimp only; rw [shapeCast_self, shapeCast_self, mm_400_64])
    | (simp only [shapeCast_self, mm_400_64])

/-! ## The host's folds of a weight into the features -/

/-- X · W1ᵀ, narrowed to bf16: the dense product with the transposed weight. -/
theorem fold1 (x : FVec Ideal S10000x256 .f32) (w : FVec Ideal S256x256 .f32) :
    truncf .bf16 (Host.dotGeneral dot_S10000x256_S256x256_S10000x256_1_0_0_1_n_n none x
        (transpose S256x256 [1, 0] w transposes_S256x256_S256x256_1_0)) bitsLt_bf16_f32
      = denseProd (n0 := 10000) (nk := 256) (n1 := 256) x (tr (a := 256) (b := 256) w) := by
  rw [transpose_eq_tr (a := 256) (b := 256) w]
  funext i
  exact congrFun (dotGeneral_eq dot_S10000x256_S256x256_S10000x256_1_0_0_1_n_n rfl rfl rfl rfl (fun _ _ => rfl) (fun _ _ => rfl)
    (φ₁ := .f32) (φ₂ := .f32) none .single x (tr (a := 256) (b := 256) w)) i

/-- H1 · W2ᵀ of the widened layer-1 output, narrowed to bf16. -/
theorem fold2 (x : FVec Ideal S10000x256 .bf16) (w : FVec Ideal S128x256 .f32) :
    truncf .bf16 (Host.dotGeneral dot_S10000x256_S256x128_S10000x128_1_0_0_1_n_n none (extf .f32 x bitsLt_bf16_f32)
        (transpose S256x128 [1, 0] w transposes_S128x256_S256x128_1_0)) bitsLt_bf16_f32
      = denseProd (n0 := 10000) (nk := 256) (n1 := 128) x (tr (a := 128) (b := 256) w) := by
  rw [transpose_eq_tr (a := 128) (b := 256) w]
  funext i
  exact congrFun (dotGeneral_eq dot_S10000x256_S256x128_S10000x128_1_0_0_1_n_n rfl rfl rfl rfl (fun _ _ => rfl) (fun _ _ => rfl)
    (φ₁ := .bf16) (φ₂ := .f32) none .single x (tr (a := 128) (b := 256) w)) i

/-- H2 · W3ᵀ of the widened layer-2 output, narrowed to bf16. -/
theorem fold3 (x : FVec Ideal S10000x128 .bf16) (w : FVec Ideal S64x128 .f32) :
    truncf .bf16 (Host.dotGeneral dot_S10000x128_S128x64_S10000x64_1_0_0_1_n_n none (extf .f32 x bitsLt_bf16_f32)
        (transpose S128x64 [1, 0] w transposes_S64x128_S128x64_1_0)) bitsLt_bf16_f32
      = denseProd (n0 := 10000) (nk := 128) (n1 := 64) x (tr (a := 64) (b := 128) w) := by
  rw [transpose_eq_tr (a := 64) (b := 128) w]
  funext i
  exact congrFun (dotGeneral_eq dot_S10000x128_S128x64_S10000x64_1_0_0_1_n_n rfl rfl rfl rfl (fun _ _ => rfl) (fun _ _ => rfl)
    (φ₁ := .bf16) (φ₂ := .f32) none .single x (tr (a := 64) (b := 128) w)) i

end Cert.KernelIdeal.Hand

end
-- ==== Proof.Region0.lean ====
/-
  Launch 0 (layer 1 of the first branch): the two arrays its write-backs leave.

  Grid point t loads rows 200 t … 200 t + 199 of the adjacency matrix A (all 10000 columns) and the whole folded feature
  matrix H, and writes back the same rows of two outputs: of relu (A · H), and of A itself narrowed to bf16 — on the
  extended reals, A itself. Row r of either depends on row r of A only, so what point t writes is block t of one array;
  the 50 blocks tile the 10000 rows, so those arrays are what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the slab and the output move one block of rows per point, the features stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the launch leaves in its output array, as one function of the two arrays it reads. -/
abbrev G0 (c : Dev nD) : Mat 10000 256 :=
  relu (denseProd (n0 := 10000) (nk := 10000) (n1 := 256) (V c main_arg0) (V c main_v2))

/-- Point t writes back block t of `G0`. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S200x10000) hz0, View.ld_unit_zero (S := S10000x256) hz0]
  obtain ⟨e00, e01, e10, e11, e20, e21, e30, e31⟩ := idx0 t
  funext j
  refine (congrFun (pay_layer0 _ _) j).trans ?_
  refine congrArg (fun v => max v (Ideal.ofBits .f32 0x00000000#32)) ?_
  show denseProd (n0 := 200) (nk := 10000) (n1 := 256) (iblk0 V c 0 t) (iblk0 V c 1 t) j
    = denseProd (n0 := 10000) (nk := 10000) (n1 := 256) (V c main_arg0) (V c main_v2) (((cfg0.win 2).blk t).view.emb j)
  rw [denseProd_apply, denseProd_apply]
  refine Finset.sum_congr rfl fun k _ => ?_
  refine congrArg₂ (fun (u v : EReal) => u * v) ?_ ?_
  · show V c main_arg0 (((cfg0.win 0).blk t).view.emb (ix2 (j 0) k)) = _
    refine congrArg (V c main_arg0) (funext fun a => Fin.ext ?_)
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  · show V c main_v2 (((cfg0.win 1).blk t).view.emb (ix2 k (j 1))) = _
    refine congrArg (V c main_v2) (funext fun a => Fin.ext ?_)
    match a with
    | ⟨0, _⟩ => show win0_1.index t (0 : Fin 2) * 10000 + 1 * k.val = k.val; omega
    | ⟨1, _⟩ => show win0_1.index t (1 : Fin 2) * 256 + 1 * (j 1).val = win0_2.index t (1 : Fin 2) * 256 + 1 * (j 1).val; omega

/-- An index of the output array is in point t's block iff each coordinate is in the block's range. -/
theorem mem_blk0 (t : Fin cfg0.N) (i : S10000x256.Idx) :
    i ∈ ((cfg0.win 2).blk t).view.set ↔ ∀ a : Fin 2, win0_2.index t a * S200x256.size a ≤ (i a).val ∧ (i a).val < win0_2.index t a * S200x256.size a + S200x256.size a := by
  show i ∈ ((View.whole main_v3_0).slice (win0_2.rect t)).set ↔ _
  rw [View.set_slice_whole, Rect.mem_set_unit]
  exact Iff.rfl

/-- Row r of the output is written by point r / 200. -/
theorem cover0 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 50 := N_0
  obtain ⟨t, ht⟩ : ∃ t : Fin cfg0.N, t.val = (i 0).val / 200 := ⟨⟨(i 0).val / 200, by omega⟩, rfl⟩
  obtain ⟨e00, e01, e10, e11, e20, e21, e30, e31⟩ := idx0 t
  refine ⟨t, flush0_2 t, ?_⟩
  rw [mem_blk0]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 256 ≤ (i 1).val ∧ (i 1).val < win0_2.index t (1 : Fin 2) * 256 + 256; omega

/-- The launch leaves relu (A · H) in its output array. -/
theorem final0 (c : Dev nD) : (dat0 V c).arrAt 2 cfg0.N = G0 V c :=
  (dat0 V c).arrAt_eq_of_cover 2 (G0 V c) (fun t _ => flushed0 V c t) (cover0)

/-! ## The second output: the adjacency matrix, narrowed -/

/-- What the launch leaves in its second output array: the adjacency matrix as it found it. -/
abbrev G0c (c : Dev nD) : Mat 10000 10000 := V c main_arg0

/-- Point t writes back block t of the adjacency matrix. -/
theorem flushed0c (c : Dev nD) (t : Fin cfg0.N) :
    (dat0 V c).flushed 3 t = ((cfg0.win 3).blk t).view.read (Elt Ideal) (G0c V c) := by
  show (cfg0.win 3).cut (grid0.coords t) ((dat0 V c).after 3 t) = _
  rw [after0_3]
  unfold out0_3
  rw [View.canon_unit_zero hz0]
  simp only [View.ld_unit_zero (S := S200x10000) hz0]
  obtain ⟨e00, e01, e10, e11, e20, e21, e30, e31⟩ := idx0 t
  funext j
  refine (congrFun (pay_copy0 _) j).trans ?_
  show V c main_arg0 (((cfg0.win 0).blk t).view.emb j) = V c main_arg0 (((cfg0.win 3).blk t).view.emb j)
  refine congrArg (V c main_arg0) (funext fun a => Fin.ext ?_)
  match a with
  | ⟨0, _⟩ => show win0_0.index t (0 : Fin 2) * 200 + 1 * (j 0).val = win0_3.index t (0 : Fin 2) * 200 + 1 * (j 0).val; omega
  | ⟨1, _⟩ => show win0_0.index t (1 : Fin 2) * 10000 + 1 * (j 1).val = win0_3.index t (1 : Fin 2) * 10000 + 1 * (j 1).val; omega

theorem mem_blk0c (t : Fin cfg0.N) (i : S10000x10000.Idx) :
    i ∈ ((cfg0.win 3).blk t).view.set ↔ ∀ a : Fin 2, win0_3.index t a * S200x10000.size a ≤ (i a).val ∧ (i a).val < win0_3.index t a * S200x10000.size a + S200x10000.size a := by
  show i ∈ ((View.whole main_v3_1).slice (win0_3.rect t)).set ↔ _
  rw [View.set_slice_whole, Rect.mem_set_unit]
  exact Iff.rfl

theorem cover0c (i : S10000x10000.Idx) : ∃ t : Fin cfg0.N, (cfg0.win 3).flush t = true ∧ i ∈ ((cfg0.win 3).blk t).view.set := by
  have hi0 : (i 0).val < 10000 := (i 0).isLt
  have hi1 : (i 1).val < 10000 := (i 1).isLt
  have hN : cfg0.N = 50 := N_0
  obtain ⟨t, ht⟩ : ∃ t : Fin cfg0.N, t.val = (i 0).val / 200 := ⟨⟨(i 0).val / 200, by omega⟩, rfl⟩
  obtain ⟨e00, e01, e10, e11, e20, e21, e30, e31⟩ := idx0 t
  refine ⟨t, flush0_3 t, ?_⟩
  rw [mem_blk0c]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 10000 ≤ (i 1).val ∧ (i 1).val < win0_3.index t (1 : Fin 2) * 10000 + 10000; omega

/-- The launch leaves the adjacency matrix in its second output array. -/
theorem final0c (c : Dev nD) : (dat0 V c).arrAt 3 cfg0.N = G0c V c :=
  (dat0 V c).arrAt_eq_of_cover 3 (G0c V c) (fun t _ => flushed0c V c t) (cover0c)

end Cert.KernelIdeal.Hand

end
-- ==== Proof.Region1.lean ====
/-
  Launch 1 (layer 2 of the first branch): the array its write-backs leave.

  Grid point t loads rows 400 t … 400 t + 399 of the adjacency matrix (all 10000 columns) and the whole folded feature
  matrix H, and writes back the same rows of the output. Row r of relu (A · H) depends on row r of A only, so what point t
  writes is block t of the one array relu (A · H); the 25 blocks tile the 10000 rows, so that array is what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the slab and the output move one block of rows per point, the features stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the launch leaves in its output array, as one function of the two arrays it reads. -/
abbrev G1 (c : Dev nD) : Mat 10000 128 :=
  relu (denseProd (n0 := 10000) (nk := 10000) (n1 := 128) (V c main_v3_1) (V c main_v7))

/-- Point t writes back block t of `G1`. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz1]
  simp only [View.ld_unit_zero (S := S400x10000) hz1, View.ld_unit_zero (S := S10000x128) hz1]
  obtain ⟨e00, e01, e10, e11, e20, e21⟩ := idx1 t
  funext j
  refine (congrFun (pay_layer1 _ _) j).trans ?_
  refine congrArg (fun v => max v (Ideal.ofBits .f32 0x00000000#32)) ?_
  show denseProd (n0 := 400) (nk := 10000) (n1 := 128) (iblk1 V c 0 t) (iblk1 V c 1 t) j
    = denseProd (n0 := 10000) (nk := 10000) (n1 := 128) (V c main_v3_1) (V c main_v7) (((cfg1.win 2).blk t).view.emb j)
  rw [denseProd_apply, denseProd_apply]
  refine Finset.sum_congr rfl fun k _ => ?_
  refine congrArg₂ (fun (u v : EReal) => u * v) ?_ ?_
  · show V c main_v3_1 (((cfg1.win 0).blk t).view.emb (ix2 (j 0) k)) = _
    refine congrArg (V c main_v3_1) (funext fun a => Fin.ext ?_)
    match a with
    | ⟨0, _⟩ => show win1_0.index t (0 : Fin 2) * 400 + 1 * (j 0).val = win1_2.index t (0 : Fin 2) * 400 + 1 * (j 0).val; omega
    | ⟨1, _⟩ => show win1_0.index t (1 : Fin 2) * 10000 + 1 * k.val = k.val; omega
  · show V c main_v7 (((cfg1.win 1).blk t).view.emb (ix2 k (j 1))) = _
    refine congrArg (V c main_v7) (funext fun a => Fin.ext ?_)
    match a with
    | ⟨0, _⟩ => show win1_1.index t (0 : Fin 2) * 10000 + 1 * k.val = k.val; omega
    | ⟨1, _⟩ => show win1_1.index t (1 : Fin 2) * 128 + 1 * (j 1).val = win1_2.index t (1 : Fin 2) * 128 + 1 * (j 1).val; omega

/-- An index of the output array is in point t's block iff each coordinate is in the block's range. -/
theorem mem_blk1 (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v8).slice (win1_2.rect t)).set ↔ _
  rw [View.set_slice_whole, Rect.mem_set_unit]
  exact Iff.rfl

/-- Row r of the output is written by point r / 400. -/
theorem cover1 (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 25 := N_1
  obtain ⟨t, ht⟩ : ∃ t : Fin cfg1.N, t.val = (i 0).val / 400 := ⟨⟨(i 0).val / 400, by omega⟩, rfl⟩
  obtain ⟨e00, e01, e10, e11, e20, e21⟩ := idx1 t
  refine ⟨t, flush1_2 t, ?_⟩
  rw [mem_blk1]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 128 ≤ (i 1).val ∧ (i 1).val < win1_2.index t (1 : Fin 2) * 128 + 128; omega

/-- The launch leaves relu (A · H) in its output array. -/
theorem final1 (c : Dev nD) : (dat1 V c).arrAt 2 cfg1.N = G1 V c :=
  (dat1 V c).arrAt_eq_of_cover 2 (G1 V c) (fun t _ => flushed1 V c t) (cover1)

end Cert.KernelIdeal.Hand

end
-- ==== Proof.Region2.lean ====
/-
  Launch 2 (layer 3 of the first branch): the array its write-backs leave.

  Grid point t loads rows 400 t … 400 t + 399 of the adjacency matrix (all 10000 columns) and the whole folded feature
  matrix H, and writes back the same rows of the output. Row r of A · H depends on row r of A only, so what point t
  writes is block t of the one array A · H; the 25 blocks tile the 10000 rows, so that array is what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the slab and the output move one block of rows per point, the features stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What the launch leaves in its output array, as one function of the two arrays it reads. -/
abbrev G2 (c : Dev nD) : Mat 10000 64 :=
  denseProd (n0 := 10000) (nk := 10000) (n1 := 64) (V c main_v3_1) (V c main_v12)

/-- Point t writes back block t of `G2`. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S400x10000) hz2, View.ld_unit_zero (S := S10000x64) hz2]
  obtain ⟨e00, e01, e10, e11, e20, e21⟩ := idx2 t
  funext j
  refine (congrFun (pay_layer2 _ _) j).trans ?_
  show denseProd (n0 := 400) (nk := 10000) (n1 := 64) (iblk2 V c 0 t) (iblk2 V c 1 t) j
    = denseProd (n0 := 10000) (nk := 10000) (n1 := 64) (V c main_v3_1) (V c main_v12) (((cfg2.win 2).blk t).view.emb j)
  rw [denseProd_apply, denseProd_apply]
  refine Finset.sum_congr rfl fun k _ => ?_
  refine congrArg₂ (fun (u v : EReal) => u * v) ?_ ?_
  · show V c main_v3_1 (((cfg2.win 0).blk t).view.emb (ix2 (j 0) k)) = _
    refine congrArg (V c main_v3_1) (funext fun a => Fin.ext ?_)
    match a with
    | ⟨0, _⟩ => show win2_0.index t (0 : Fin 2) * 400 + 1 * (j 0).val = win2_2.index t (0 : Fin 2) * 400 + 1 * (j 0).val; omega
    | ⟨1, _⟩ => show win2_0.index t (1 : Fin 2) * 10000 + 1 * k.val = k.val; omega
  · show V c main_v12 (((cfg2.win 1).blk t).view.emb (ix2 k (j 1))) = _
    refine congrArg (V c main_v12) (funext fun a => Fin.ext ?_)
    match a with
    | ⟨0, _⟩ => show win2_1.index t (0 : Fin 2) * 10000 + 1 * k.val = k.val; omega
    | ⟨1, _⟩ => show win2_1.index t (1 : Fin 2) * 64 + 1 * (j 1).val = win2_2.index t (1 : Fin 2) * 64 + 1 * (j 1).val; omega

/-- An index of the output array is in point t's block iff each coordinate is in the block's range. -/
theorem mem_blk2 (t : Fin cfg2.N) (i : S10000x64.Idx) :
    i ∈ ((cfg2.win 2).blk t).view.set ↔ ∀ a : Fin 2, win2_2.index t a * S400x64.size a ≤ (i a).val ∧ (i a).val < win2_2.index t a * S400x64.size a + S400x64.size a := by
  show i ∈ ((View.whole main_v13).slice (win2_2.rect t)).set ↔ _
  rw [View.set_slice_whole, Rect.mem_set_unit]
  exact Iff.rfl

/-- Row r of the output is written by point r / 400. -/
theorem cover2 (i : S10000x64.Idx) : ∃ t : Fin cfg2.N, (cfg2.win 2).flush t = true ∧ i ∈ ((cfg2.win 2).blk t).view.set := by
  have hi0 : (i 0).val < 10000 := (i 0).isLt
  have hi1 : (i 1).val < 64 := (i 1).isLt
  have hN : cfg2.N = 25 := N_2
  obtain ⟨t, ht⟩ : ∃ t : Fin cfg2.N, t.val = (i 0).val / 400 := ⟨⟨(i 0).val / 400, by omega⟩, rfl⟩
  obtain ⟨e00, e01, e10, e11, e20, e21⟩ := idx2 t
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 64 ≤ (i 1).val ∧ (i 1).val < win2_2.index t (1 : Fin 2) * 64 + 64; omega

/-- The launch leaves A · H in its output array. -/
theorem final2 (c : Dev nD) : (dat2 V c).arrAt 2 cfg2.N = G2 V c :=
  (dat2 V c).arrAt_eq_of_cover 2 (G2 V c) (fun t _ => flushed2 V c t) (cover2)

end Cert.KernelIdeal.Hand

end
-- ==== Proof.Region3.lean ====
/-
  Launch 3 (layer 1 of the second branch): the two arrays its write-backs leave.

  Grid point t loads rows 200 t … 200 t + 199 of the adjacency matrix A (all 10000 columns) and the whole folded feature
  matrix H, and writes back the same rows of two outputs: of relu (A · H), and of A itself narrowed to bf16 — on the
  extended reals, A itself. Row r of either depends on row r of A only, so what point t writes is block t of one array;
  the 50 blocks tile the 10000 rows, so those arrays are what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the slab and the output move one block of rows per point, the features stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What the launch leaves in its output array, as one function of the two arrays it reads. -/
abbrev G3 (c : Dev nD) : Mat 10000 256 :=
  relu (denseProd (n0 := 10000) (nk := 10000) (n1 := 256) (V c main_arg2) (V c main_v16))

/-- Point t writes back block t of `G3`. -/
theorem flushed3 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S200x10000) hz3, View.ld_unit_zero (S := S10000x256) hz3]
  obtain ⟨e00, e01, e10, e11, e20, e21, e30, e31⟩ := idx3 t
  funext j
  refine (congrFun (pay_layer3 _ _) j).trans ?_
  refine congrArg (fun v => max v (Ideal.ofBits .f32 0x00000000#32)) ?_
  show denseProd (n0 := 200) (nk := 10000) (n1 := 256) (iblk3 V c 0 t) (iblk3 V c 1 t) j
    = denseProd (n0 := 10000) (nk := 10000) (n1 := 256) (V c main_arg2) (V c main_v16) (((cfg3.win 2).blk t).view.emb j)
  rw [denseProd_apply, denseProd_apply]
  refine Finset.sum_congr rfl fun k _ => ?_
  refine congrArg₂ (fun (u v : EReal) => u * v) ?_ ?_
  · show V c main_arg2 (((cfg3.win 0).blk t).view.emb (ix2 (j 0) k)) = _
    refine congrArg (V c main_arg2) (funext fun a => Fin.ext ?_)
    match a with
    | ⟨0, _⟩ => show win3_0.index t (0 : Fin 2) * 200 + 1 * (j 0).val = win3_2.index t (0 : Fin 2) * 200 + 1 * (j 0).val; omega
    | ⟨1, _⟩ => show win3_0.index t (1 : Fin 2) * 10000 + 1 * k.val = k.val; omega
  · show V c main_v16 (((cfg3.win 1).blk t).view.emb (ix2 k (j 1))) = _
    refine congrArg (V c main_v16) (funext fun a => Fin.ext ?_)
    match a with
    | ⟨0, _⟩ => show win3_1.index t (0 : Fin 2) * 10000 + 1 * k.val = k.val; omega
    | ⟨1, _⟩ => show win3_1.index t (1 : Fin 2) * 256 + 1 * (j 1).val = win3_2.index t (1 : Fin 2) * 256 + 1 * (j 1).val; omega

/-- An index of the output array is in point t's block iff each coordinate is in the block's range. -/
theorem mem_blk3 (t : Fin cfg3.N) (i : S10000x256.Idx) :
    i ∈ ((cfg3.win 2).blk t).view.set ↔ ∀ a : Fin 2, win3_2.index t a * S200x256.size a ≤ (i a).val ∧ (i a).val < win3_2.index t a * S200x256.size a + S200x256.size a := by
  show i ∈ ((View.whole main_v17_0).slice (win3_2.rect t)).set ↔ _
  rw [View.set_slice_whole, Rect.mem_set_unit]
  exact Iff.rfl

/-- Row r of the output is written by point r / 200. -/
theorem cover3 (i : S10000x256.Idx) : ∃ t : Fin cfg3.N, (cfg3.win 2).flush t = true ∧ i ∈ ((cfg3.win 2).blk t).view.set := by
  have hi0 : (i 0).val < 10000 := (i 0).isLt
  have hi1 : (i 1).val < 256 := (i 1).isLt
  have hN : cfg3.N = 50 := N_3
  obtain ⟨t, ht⟩ : ∃ t : Fin cfg3.N, t.val = (i 0).val / 200 := ⟨⟨(i 0).val / 200, by omega⟩, rfl⟩
  obtain ⟨e00, e01, e10, e11, e20, e21, e30, e31⟩ := idx3 t
  refine ⟨t, flush3_2 t, ?_⟩
  rw [mem_blk3]
  intro a
  match a with
  | ⟨0, _⟩ => show win3_2.index t (0 : Fin 2) * 200 ≤ (i 0).val ∧ (i 0).val < win3_2.index t (0 : Fin 2) * 200 + 200; omega
  | ⟨1, _⟩ => show win3_2.index t (1 : Fin 2) * 256 ≤ (i 1).val ∧ (i 1).val < win3_2.index t (1 : Fin 2) * 256 + 256; omega

/-- The launch leaves relu (A · H) in its output array. -/
theorem final3 (c : Dev nD) : (dat3 V c).arrAt 2 cfg3.N = G3 V c :=
  (dat3 V c).arrAt_eq_of_cover 2 (G3 V c) (fun t _ => flushed3 V c t) (cover3)

/-! ## The second output: the adjacency matrix, narrowed -/

/-- What the launch leaves in its second output array: the adjacency matrix as it found it. -/
abbrev G3c (c : Dev nD) : Mat 10000 10000 := V c main_arg2

/-- Point t writes back block t of the adjacency matrix. -/
theorem flushed3c (c : Dev nD) (t : Fin cfg3.N) :
    (dat3 V c).flushed 3 t = ((cfg3.win 3).blk t).view.read (Elt Ideal) (G3c V c) := by
  show (cfg3.win 3).cut (grid3.coords t) ((dat3 V c).after 3 t) = _
  rw [after3_3]
  unfold out3_3
  rw [View.canon_unit_zero hz3]
  simp only [View.ld_unit_zero (S := S200x10000) hz3]
  obtain ⟨e00, e01, e10, e11, e20, e21, e30, e31⟩ := idx3 t
  funext j
  refine (congrFun (pay_copy3 _) j).trans ?_
  show V c main_arg2 (((cfg3.win 0).blk t).view.emb j) = V c main_arg2 (((cfg3.win 3).blk t).view.emb j)
  refine congrArg (V c main_arg2) (funext fun a => Fin.ext ?_)
  match a with
  | ⟨0, _⟩ => show win3_0.index t (0 : Fin 2) * 200 + 1 * (j 0).val = win3_3.index t (0 : Fin 2) * 200 + 1 * (j 0).val; omega
  | ⟨1, _⟩ => show win3_0.index t (1 : Fin 2) * 10000 + 1 * (j 1).val = win3_3.index t (1 : Fin 2) * 10000 + 1 * (j 1).val; omega

theorem mem_blk3c (t : Fin cfg3.N) (i : S10000x10000.Idx) :
    i ∈ ((cfg3.win 3).blk t).view.set ↔ ∀ a : Fin 2, win3_3.index t a * S200x10000.size a ≤ (i a).val ∧ (i a).val < win3_3.index t a * S200x10000.size a + S200x10000.size a := by
  show i ∈ ((View.whole main_v17_1).slice (win3_3.rect t)).set ↔ _
  rw [View.set_slice_whole, Rect.mem_set_unit]
  exact Iff.rfl

theorem cover3c (i : S10000x10000.Idx) : ∃ t : Fin cfg3.N, (cfg3.win 3).flush t = true ∧ i ∈ ((cfg3.win 3).blk t).view.set := by
  have hi0 : (i 0).val < 10000 := (i 0).isLt
  have hi1 : (i 1).val < 10000 := (i 1).isLt
  have hN : cfg3.N = 50 := N_3
  obtain ⟨t, ht⟩ : ∃ t : Fin cfg3.N, t.val = (i 0).val / 200 := ⟨⟨(i 0).val / 200, by omega⟩, rfl⟩
  obtain ⟨e00, e01, e10, e11, e20, e21, e30, e31⟩ := idx3 t
  refine ⟨t, flush3_3 t, ?_⟩
  rw [mem_blk3c]
  intro a
  match a with
  | ⟨0, _⟩ => show win3_3.index t (0 : Fin 2) * 200 ≤ (i 0).val ∧ (i 0).val < win3_3.index t (0 : Fin 2) * 200 + 200; omega
  | ⟨1, _⟩ => show win3_3.index t (1 : Fin 2) * 10000 ≤ (i 1).val ∧ (i 1).val < win3_3.index t (1 : Fin 2) * 10000 + 10000; omega

/-- The launch leaves the adjacency matrix in its second output array. -/
theorem final3c (c : Dev nD) : (dat3 V c).arrAt 3 cfg3.N = G3c V c :=
  (dat3 V c).arrAt_eq_of_cover 3 (G3c V c) (fun t _ => flushed3c V c t) (cover3c)

end Cert.KernelIdeal.Hand

end
-- ==== Proof.Region4.lean ====
/-
  Launch 4 (layer 2 of the second branch): the array its write-backs leave.

  Grid point t loads rows 400 t … 400 t + 399 of the adjacency matrix (all 10000 columns) and the whole folded feature
  matrix H, and writes back the same rows of the output. Row r of relu (A · H) depends on row r of A only, so what point t
  writes is block t of the one array relu (A · H); the 25 blocks tile the 10000 rows, so that array is what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the slab and the output move one block of rows per point, the features stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the launch leaves in its output array, as one function of the two arrays it reads. -/
abbrev G4 (c : Dev nD) : Mat 10000 128 :=
  relu (denseProd (n0 := 10000) (nk := 10000) (n1 := 128) (V c main_v17_1) (V c main_v21))

/-- Point t writes back block t of `G4`. -/
theorem flushed4 (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero hz4]
  simp only [View.ld_unit_zero (S := S400x10000) hz4, View.ld_unit_zero (S := S10000x128) hz4]
  obtain ⟨e00, e01, e10, e11, e20, e21⟩ := idx4 t
  funext j
  refine (congrFun (pay_layer4 _ _) j).trans ?_
  refine congrArg (fun v => max v (Ideal.ofBits .f32 0x00000000#32)) ?_
  show denseProd (n0 := 400) (nk := 10000) (n1 := 128) (iblk4 V c 0 t) (iblk4 V c 1 t) j
    = denseProd (n0 := 10000) (nk := 10000) (n1 := 128) (V c main_v17_1) (V c main_v21) (((cfg4.win 2).blk t).view.emb j)
  rw [denseProd_apply, denseProd_apply]
  refine Finset.sum_congr rfl fun k _ => ?_
  refine congrArg₂ (fun (u v : EReal) => u * v) ?_ ?_
  · show V c main_v17_1 (((cfg4.win 0).blk t).view.emb (ix2 (j 0) k)) = _
    refine congrArg (V c main_v17_1) (funext fun a => Fin.ext ?_)
    match a with
    | ⟨0, _⟩ => show win4_0.index t (0 : Fin 2) * 400 + 1 * (j 0).val = win4_2.index t (0 : Fin 2) * 400 + 1 * (j 0).val; omega
    | ⟨1, _⟩ => show win4_0.index t (1 : Fin 2) * 10000 + 1 * k.val = k.val; omega
  · show V c main_v21 (((cfg4.win 1).blk t).view.emb (ix2 k (j 1))) = _
    refine congrArg (V c main_v21) (funext fun a => Fin.ext ?_)
    match a with
    | ⟨0, _⟩ => show win4_1.index t (0 : Fin 2) * 10000 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range. -/
theorem mem_blk4 (t : Fin cfg4.N) (i : S10000x128.Idx) :
    i ∈ ((cfg4.win 2).blk t).view.set ↔ ∀ a : Fin 2, win4_2.index t a * S400x128.size a ≤ (i a).val ∧ (i a).val < win4_2.index t a * S400x128.size a + S400x128.size a := by
  show i ∈ ((View.whole main_v22).slice (win4_2.rect t)).set ↔ _
  rw [View.set_slice_whole, Rect.mem_set_unit]
  exact Iff.rfl

/-- Row r of the output is written by point r / 400. -/
theorem cover4 (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  have hN : cfg4.N = 25 := N_4
  obtain ⟨t, ht⟩ : ∃ t : Fin cfg4.N, t.val = (i 0).val / 400 := ⟨⟨(i 0).val / 400, by omega⟩, rfl⟩
  obtain ⟨e00, e01, e10, e11, e20, e21⟩ := idx4 t
  refine ⟨t, flush4_2 t, ?_⟩
  rw [mem_blk4]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 128 ≤ (i 1).val ∧ (i 1).val < win4_2.index t (1 : Fin 2) * 128 + 128; omega

/-- The launch leaves relu (A · H) in its output array. -/
theorem final4 (c : Dev nD) : (dat4 V c).arrAt 2 cfg4.N = G4 V c :=
  (dat4 V c).arrAt_eq_of_cover 2 (G4 V c) (fun t _ => flushed4 V c t) (cover4)

end Cert.KernelIdeal.Hand

end
-- ==== Proof.Region5.lean ====
/-
  Launch 5 (layer 3 of the second branch): the array its write-backs leave.

  Grid point t loads rows 400 t … 400 t + 399 of the adjacency matrix (all 10000 columns) and the whole folded feature
  matrix H, and writes back the same rows of the output. Row r of A · H depends on row r of A only, so what point t
  writes is block t of the one array A · H; the 25 blocks tile the 10000 rows, so that array is what the launch leaves.
-/
import proofs.«164636_j34187939676601_2_alg».proof.Proof.Gen.KernelIdeal.Frame
import proofs.«164636_j34187939676601_2_alg».proof.Proof.Payloads

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the slab and the output move one block of rows per point, the features stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What the launch leaves in its output array, as one function of the two arrays it reads. -/
abbrev G5 (c : Dev nD) : Mat 10000 64 :=
  denseProd (n0 := 10000) (nk := 10000) (n1 := 64) (V c main_v17_1) (V c main_v26)

/-- Point t writes back block t of `G5`. -/
theorem flushed5 (c : Dev nD) (t : Fin cfg5.N) :
    (dat5 V c).flushed 2 t = ((cfg5.win 2).blk t).view.read (Elt Ideal) (G5 V c) := by
  show (cfg5.win 2).cut (grid5.coords t) ((dat5 V c).after 2 t) = _
  rw [after5_2]
  unfold out5_2
  rw [View.canon_unit_zero hz5]
  simp only [View.ld_unit_zero (S := S400x10000) hz5, View.ld_unit_zero (S := S10000x64) hz5]
  obtain ⟨e00, e01, e10, e11, e20, e21⟩ := idx5 t
  funext j
  refine (congrFun (pay_layer5 _ _) j).trans ?_
  show denseProd (n0 := 400) (nk := 10000) (n1 := 64) (iblk5 V c 0 t) (iblk5 V c 1 t) j
    = denseProd (n0 := 10000) (nk := 10000) (n1 := 64) (V c main_v17_1) (V c main_v26) (((cfg5.win 2).blk t).view.emb j)
  rw [denseProd_apply, denseProd_apply]
  refine Finset.sum_congr rfl fun k _ => ?_
  refine congrArg₂ (fun (u v : EReal) => u * v) ?_ ?_
  · show V c main_v17_1 (((cfg5.win 0).blk t).view.emb (ix2 (j 0) k)) = _
    refine congrArg (V c main_v17_1) (funext fun a => Fin.ext ?_)
    match a with
    | ⟨0, _⟩ => show win5_0.index t (0 : Fin 2) * 400 + 1 * (j 0).val = win5_2.index t (0 : Fin 2) * 400 + 1 * (j 0).val; omega
    | ⟨1, _⟩ => show win5_0.index t (1 : Fin 2) * 10000 + 1 * k.val = k.val; omega
  · show V c main_v26 (((cfg5.win 1).blk t).view.emb (ix2 k (j 1))) = _
    refine congrArg (V c main_v26) (funext fun a => Fin.ext ?_)
    match a with
    | ⟨0, _⟩ => show win5_1.index t (0 : Fin 2) * 10000 + 1 * k.val = k.val; omega
    | ⟨1, _⟩ => show win5_1.index t (1 : Fin 2) * 64 + 1 * (j 1).val = win5_2.index t (1 : Fin 2) * 64 + 1 * (j 1).val; omega

/-- An index of the output array is in point t's block iff each coordinate is in the block's range. -/
theorem mem_blk5 (t : Fin cfg5.N) (i : S10000x64.Idx) :
    i ∈ ((cfg5.win 2).blk t).view.set ↔ ∀ a : Fin 2, win5_2.index t a * S400x64.size a ≤ (i a).val ∧ (i a).val < win5_2.index t a * S400x64.size a + S400x64.size a := by
  show i ∈ ((View.whole main_v27).slice (win5_2.rect t)).set ↔ _
  rw [View.set_slice_whole, Rect.mem_set_unit]
  exact Iff.rfl

/-- Row r of the output is written by point r / 400. -/
theorem cover5 (i : S10000x64.Idx) : ∃ t : Fin cfg5.N, (cfg5.win 2).flush t = true ∧ i ∈ ((cfg5.win 2).blk t).view.set := by
  have hi0 : (i 0).val < 10000 := (i 0).isLt
  have hi1 : (i 1).val < 64 := (i 1).isLt
  have hN : cfg5.N = 25 := N_5
  obtain ⟨t, ht⟩ : ∃ t : Fin cfg5.N, t.val = (i 0).val / 400 := ⟨⟨(i 0).val / 400, by omega⟩, rfl⟩
  obtain ⟨e00, e01, e10, e11, e20, e21⟩ := idx5 t
  refine ⟨t, flush5_2 t, ?_⟩
  rw [mem_blk5]
  intro a
  match a with
  | ⟨0, _⟩ => show win5_2.index t (0 : Fin 2) * 400 ≤ (i 0).val ∧ (i 0).val < win5_2.index t (0 : Fin 2) * 400 + 400; omega
  | ⟨1, _⟩ => show win5_2.index t (1 : Fin 2) * 64 ≤ (i 1).val ∧ (i 1).val < win5_2.index t (1 : Fin 2) * 64 + 64; omega

/-- The launch leaves A · H in its output array. -/
theorem final5 (c : Dev nD) : (dat5 V c).arrAt 2 cfg5.N = G5 V c :=
  (dat5 V c).arrAt_eq_of_cover 2 (G5 V c) (fun t _ => flushed5 V c t) (cover5)

end Cert.KernelIdeal.Hand

end
-- ==== Proof.HostSteps.lean ====
/-
  The stretches of host operations between the launches, read at one buffer.

  Each stretch folds a weight into the current features: X · W1ᵀ before the first launch of a branch, then H · W2ᵀ and
  H · W3ᵀ of the previous launch's output. Changes of float format are the identity on the extended reals, so the buffer
  the next launch reads holds the dense product of the features with the transposed weight. A buffer the stretch does
  not write keeps what it held.
-/
import proofs.«164636_j34187939676601_2_alg».proof.Proof.Gen.KernelIdeal.Launch
import proofs.«164636_j34187939676601_2_alg».proof.Proof.Payloads
import Idealize.ShloMosaic.Lib.StableHlo.Run

noncomputable section

namespace Cert.KernelIdeal.Hand

open Cert.KernelIdeal Cert.KernelIdeal.Gen Cert.Gcn Cert.LibDense
open Idealize.ShloMosaic Idealize.ShloMosaic.TcCoe Idealize.ShloMosaic.StableHlo

variable (W : Valuation τ sig (Elt Ideal))

/-! ## What each stretch leaves in the buffer the next launch reads -/

theorem host0_v2 : after hostOps0 W (Proc.devRef .tc main_v2)
    = denseProd (n0 := 10000) (nk := 256) (n1 := 256) (W (Proc.devRef .tc main_arg1)) (tr (a := 256) (b := 256) (W (Proc.devRef .tc main_arg4))) := by
  refine Eq.trans ?_ (fold1 (W (Proc.devRef .tc main_arg1)) (W (Proc.devRef .tc main_arg4)))
  unfold hostOps0
  after_results
  try rfl

theorem host1_v7 : after hostOps1 W (Proc.devRef .tc main_v7)
    = denseProd (n0 := 10000) (nk := 256) (n1 := 128) (W (Proc.devRef .tc main_v3_0)) (tr (a := 128) (b := 256) (W (Proc.devRef .tc main_arg5))) := by
  refine Eq.trans ?_ (fold2 (W (Proc.devRef .tc main_v3_0)) (W (Proc.devRef .tc main_arg5)))
  unfold hostOps1
  after_results
  try rfl

theorem host2_v12 : after hostOps2 W (Proc.devRef .tc main_v12)
    = denseProd (n0 := 10000) (nk := 128) (n1 := 64) (W (Proc.devRef .tc main_v8)) (tr (a := 64) (b := 128) (W (Proc.devRef .tc main_arg6))) := by
  refine Eq.trans ?_ (fold3 (W (Proc.devRef .tc main_v8)) (W (Proc.devRef .tc main_arg6)))
  unfold hostOps2
  after_results
  try rfl

theorem host3_v16 : after hostOps3 W (Proc.devRef .tc main_v16)
    = denseProd (n0 := 10000) (nk := 256) (n1 := 256) (W (Proc.devRef .tc main_arg3)) (tr (a := 256) (b := 256) (W (Proc.devRef .tc main_arg4))) := by
  refine Eq.trans ?_ (fold1 (W (Proc.devRef .tc main_arg3)) (W (Proc.devRef .tc main_arg4)))
  unfold hostOps3
  after_results
  try rfl

theorem host4_v21 : after hostOps4 W (Proc.devRef .tc main_v21)
    = denseProd (n0 := 10000) (nk := 256) (n1 := 128) (W (Proc.devRef .tc main_v17_0)) (tr (a := 128) (b := 256) (W (Proc.devRef .tc main_arg5))) := by
  refine Eq.trans ?_ (fold2 (W (Proc.devRef .tc main_v17_0)) (W (Proc.devRef .tc main_arg5)))
  unfold hostOps4
  after_results
  try rfl

theorem host5_v26 : after hostOps5 W (Proc.devRef .tc main_v26)
    = denseProd (n0 := 10000) (nk := 128) (n1 := 64) (W (Proc.devRef .tc main_v22)) (tr (a := 64) (b := 128) (W (Proc.devRef .tc main_arg6))) := by
  refine Eq.trans ?_ (fold3 (W (Proc.devRef .tc main_v22)) (W (Proc.devRef .tc main_arg6)))
  unfold hostOps5
  after_results
  try rfl

/-! ## A buffer a stretch does not write keeps its contents -/

theorem host0_keep (b : Ref sig .tc) (h0 : b ≠ main_v0) (h1 : b ≠ main_v1) (h2 : b ≠ main_v2) :
    after hostOps0 W (Proc.devRef .tc b) = W (Proc.devRef .tc b) := by
  unfold hostOps0
  simp only [after_cons, after_nil]
  rw [unary_result_ne (h := h2), binary_result_ne (h := h1), unary_result_ne (h := h0)]

theorem host1_keep (b : Ref sig .tc) (h0 : b ≠ main_v4) (h1 : b ≠ main_v5) (h2 : b ≠ main_v6) (h3 : b ≠ main_v7) :
    after hostOps1 W (Proc.devRef .tc b) = W (Proc.devRef .tc b) := by
  unfold hostOps1
  simp only [after_cons, after_nil]
  rw [unary_result_ne (h := h3), binary_result_ne (h := h2), unary_result_ne (h := h1), unary_result_ne (h := h0)]

theorem host2_keep (b : Ref sig .tc) (h0 : b ≠ main_v9) (h1 : b ≠ main_v10) (h2 : b ≠ main_v11) (h3 : b ≠ main_v12) :
    after hostOps2 W (Proc.devRef .tc b) = W (Proc.devRef .tc b) := by
  unfold hostOps2
  simp only [after_cons, after_nil]
  rw [unary_result_ne (h := h3), binary_result_ne (h := h2), unary_result_ne (h := h1), unary_result_ne (h := h0)]

theorem host3_keep (b : Ref sig .tc) (h0 : b ≠ main_v14) (h1 : b ≠ main_v15) (h2 : b ≠ main_v16) :
    after hostOps3 W (Proc.devRef .tc b) = W (Proc.devRef .tc b) := by
  unfold hostOps3
  simp only [after_cons, after_nil]
  rw [unary_result_ne (h := h2), binary_result_ne (h := h1), unary_result_ne (h := h0)]

theorem host4_keep (b : Ref sig .tc) (h0 : b ≠ main_v18) (h1 : b ≠ main_v19) (h2 : b ≠ main_v20) (h3 : b ≠ main_v21) :
    after hostOps4 W (Proc.devRef .tc b) = W (Proc.devRef .tc b) := by
  unfold hostOps4
  simp only [after_cons, after_nil]
  rw [unary_result_ne (h := h3), binary_result_ne (h := h2), unary_result_ne (h := h1), unary_result_ne (h := h0)]

theorem host5_keep (b : Ref sig .tc) (h0 : b ≠ main_v23) (h1 : b ≠ main_v24) (h2 : b ≠ main_v25) (h3 : b ≠ main_v26) :
    after hostOps5 W (Proc.devRef .tc b) = W (Proc.devRef .tc b) := by
  unfold hostOps5
  simp only [after_cons, after_nil]
  rw [unary_result_ne (h := h3), binary_result_ne (h := h2), unary_result_ne (h := h1), unary_result_ne (h := h0)]

end Cert.KernelIdeal.Hand

end
-- ==== Proof.KernelFold.lean ====
/-
  The fold through @main, read at the two result buffers.

  The buffers' contents at the boundaries between @main's stretches and launches are a fold from the launch memory.
  Walking it for the first branch: the stretch before launch 0 leaves X · W1ᵀ; launch 0 leaves H1 = relu (A · (X · W1ᵀ))
  and a copy of A; the next stretch leaves H1 · W2ᵀ; launch 1 leaves H2 = relu (A · (H1 · W2ᵀ)); the next stretch H2 · W3ᵀ;
  launch 2 leaves A · (H2 · W3ᵀ) in the first result. Nothing later writes that buffer. The second branch is the same walk
  over its own inputs, which nothing before it wrote. Each step is one lemma: a launch's arrays by what its write-backs
  leave, a stretch's result by its operations, every other buffer kept.
-/
import proofs.«164636_j34187939676601_2_alg».proof.Proof.Gen.KernelIdeal.Frame
import proofs.«164636_j34187939676601_2_alg».proof.Proof.Region0
import proofs.«164636_j34187939676601_2_alg».proof.Proof.Region1
import proofs.«164636_j34187939676601_2_alg».proof.Proof.Region2
import proofs.«164636_j34187939676601_2_alg».proof.Proof.Region3
import proofs.«164636_j34187939676601_2_alg».proof.Proof.Region4
import proofs.«164636_j34187939676601_2_alg».proof.Proof.Region5
import proofs.«164636_j34187939676601_2_alg».proof.Proof.HostSteps

set_option maxRecDepth 16384

noncomputable section

namespace Cert.KernelIdeal.Hand

open Cert.KernelIdeal Cert.KernelIdeal.Gen Cert.Gcn Cert.LibDense
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## The inputs as launched -/

abbrev aS : Mat 10000 10000 := m ((c.tc : Thread nD τ).loc main_arg0)
abbrev xS : Mat 10000 256 := m ((c.tc : Thread nD τ).loc main_arg1)
abbrev aT : Mat 10000 10000 := m ((c.tc : Thread nD τ).loc main_arg2)
abbrev xT : Mat 10000 256 := m ((c.tc : Thread nD τ).loc main_arg3)
abbrev w1 : Mat 256 256 := m ((c.tc : Thread nD τ).loc main_arg4)
abbrev w2 : Mat 128 256 := m ((c.tc : Thread nD τ).loc main_arg5)
abbrev w3 : Mat 64 128 := m ((c.tc : Thread nD τ).loc main_arg6)

/-- Layer 1's output. -/
abbrev h1 (A : Mat 10000 10000) (X : Mat 10000 256) (W1 : Mat 256 256) : Mat 10000 256 :=
  relu (denseProd A (denseProd X (tr W1)))
/-- Layer 2's output. -/
abbrev h2 (A : Mat 10000 10000) (H1 : Mat 10000 256) (W2 : Mat 128 256) : Mat 10000 128 :=
  relu (denseProd A (denseProd H1 (tr W2)))

/-! ## An input nothing has written yet: through the first branch's three stretches and launches -/

theorem W6_input (b : Ref sig .tc)
    (n0 : ∀ w, Pipeline.arrRef spec0 w ≠ b) (n1 : ∀ w, Pipeline.arrRef spec1 w ≠ b) (n2 : ∀ w, Pipeline.arrRef spec2 w ≠ b)
    (a0 : b ≠ main_v0) (a1 : b ≠ main_v1) (a2 : b ≠ main_v2)
    (b0 : b ≠ main_v4) (b1 : b ≠ main_v5) (b2 : b ≠ main_v6) (b3 : b ≠ main_v7)
    (c0 : b ≠ main_v9) (c1 : b ≠ main_v10) (c2 : b ≠ main_v11) (c3 : b ≠ main_v12) :
    W6 m ρ c (Proc.devRef .tc b) = m ((c.tc : Thread nD τ).loc b) :=
  calc W6 m ρ c (Proc.devRef .tc b)
    _ = W5 m ρ c (Proc.devRef .tc b) := W6_of_ne m ρ c b n2
    _ = W4 m ρ c (Proc.devRef .tc b) := host2_keep (W4 m ρ c) b c0 c1 c2 c3
    _ = W3 m ρ c (Proc.devRef .tc b) := W4_of_ne m ρ c b n1
    _ = W2 m ρ c (Proc.devRef .tc b) := host1_keep (W2 m ρ c) b b0 b1 b2 b3
    _ = W1 m ρ c (Proc.devRef .tc b) := W2_of_ne m ρ c b n0
    _ = W0 m ρ c (Proc.devRef .tc b) := host0_keep (W0 m ρ c) b a0 a1 a2
    _ = m ((c.tc : Thread nD τ).loc b) := rfl

/-! ## The first branch -/

theorem V1_arg0 : V1 m ρ c main_arg0 = aS m c :=
  host0_keep (W0 m ρ c) main_arg0 (by decide) (by decide) (by decide)

theorem V1_v2 : V1 m ρ c main_v2 = denseProd (xS m c) (tr (w1 m c)) := host0_v2 (W0 m ρ c)

theorem W2_v3_0 : W2 m ρ c (Proc.devRef .tc main_v3_0) = h1 (aS m c) (xS m c) (w1 m c) :=
  (W2_arr m ρ c 2).trans ((final0 (V1 m ρ) c).trans
    (congrArg₂ (fun (a : Mat 10000 10000) (h : Mat 10000 256) => relu (denseProd a h)) (V1_arg0 m ρ c) (V1_v2 m ρ c)))

theorem W2_v3_1 : W2 m ρ c (Proc.devRef .tc main_v3_1) = aS m c :=
  (W2_arr m ρ c 3).trans ((final0c (V1 m ρ) c).trans (V1_arg0 m ρ c))

theorem W2_arg5 : W2 m ρ c (Proc.devRef .tc main_arg5) = w2 m c :=
  (W2_of_ne m ρ c main_arg5 (by decide)).trans (host0_keep (W0 m ρ c) main_arg5 (by decide) (by decide) (by decide))

theorem V3_v7 : V3 m ρ c main_v7 = denseProd (h1 (aS m c) (xS m c) (w1 m c)) (tr (w2 m c)) :=
  (host1_v7 (W2 m ρ c)).trans
    (congrArg₂ (fun (h : Mat 10000 256) (w : Mat 128 256) => denseProd h (tr w)) (W2_v3_0 m ρ c) (W2_arg5 m ρ c))

theorem V3_v3_1 : V3 m ρ c main_v3_1 = aS m c :=
  (host1_keep (W2 m ρ c) main_v3_1 (by decide) (by decide) (by decide) (by decide)).trans (W2_v3_1 m ρ c)

theorem W4_v8 : W4 m ρ c (Proc.devRef .tc main_v8) = h2 (aS m c) (h1 (aS m c) (xS m c) (w1 m c)) (w2 m c) :=
  (W4_arr m ρ c 2).trans ((final1 (V3 m ρ) c).trans
    (congrArg₂ (fun (a : Mat 10000 10000) (h : Mat 10000 128) => relu (denseProd a h)) (V3_v3_1 m ρ c) (V3_v7 m ρ c)))

theorem W4_v3_1 : W4 m ρ c (Proc.devRef .tc main_v3_1) = aS m c :=
  (W4_arr m ρ c 0).trans (((dat1 (V3 m ρ) c).arrAt_in 0 rfl _).trans ((A_eq1 (V3 m ρ) c 0).trans (V3_v3_1 m ρ c)))

theorem W4_arg6 : W4 m ρ c (Proc.devRef .tc main_arg6) = w3 m c :=
  calc W4 m ρ c (Proc.devRef .tc main_arg6)
    _ = W3 m ρ c (Proc.devRef .tc main_arg6) := W4_of_ne m ρ c main_arg6 (by decide)
    _ = W2 m ρ c (Proc.devRef .tc main_arg6) := host1_keep (W2 m ρ c) main_arg6 (by decide) (by decide) (by decide) (by decide)
    _ = W1 m ρ c (Proc.devRef .tc main_arg6) := W2_of_ne m ρ c main_arg6 (by decide)
    _ = W0 m ρ c (Proc.devRef .tc main_arg6) := host0_keep (W0 m ρ c) main_arg6 (by decide) (by decide) (by decide)
    _ = w3 m c := rfl

theorem V5_v12 : V5 m ρ c main_v12
    = denseProd (h2 (aS m c) (h1 (aS m c) (xS m c) (w1 m c)) (w2 m c)) (tr (w3 m c)) :=
  (host2_v12 (W4 m ρ c)).trans
    (congrArg₂ (fun (h : Mat 10000 128) (w : Mat 64 128) => denseProd h (tr w)) (W4_v8 m ρ c) (W4_arg6 m ρ c))

theorem V5_v3_1 : V5 m ρ c main_v3_1 = aS m c :=
  (host2_keep (W4 m ρ c) main_v3_1 (by decide) (by decide) (by decide) (by decide)).trans (W4_v3_1 m ρ c)

theorem W6_v13 : W6 m ρ c (Proc.devRef .tc main_v13) = kerBranch (aS m c) (xS m c) (w1 m c) (w2 m c) (w3 m c) :=
  (W6_arr m ρ c 2).trans ((final2 (V5 m ρ) c).trans
    (congrArg₂ (fun (a : Mat 10000 10000) (h : Mat 10000 64) => denseProd a h) (V5_v3_1 m ρ c) (V5_v12 m ρ c)))

/-- Nothing after launch 2 writes the first result. -/
theorem W12_v13 : W12 m ρ c (Proc.devRef .tc main_v13) = kerBranch (aS m c) (xS m c) (w1 m c) (w2 m c) (w3 m c) :=
  calc W12 m ρ c (Proc.devRef .tc main_v13)
    _ = W11 m ρ c (Proc.devRef .tc main_v13) := W12_of_ne m ρ c main_v13 (by decide)
    _ = W10 m ρ c (Proc.devRef .tc main_v13) := host5_keep (W10 m ρ c) main_v13 (by decide) (by decide) (by decide) (by decide)
    _ = W9 m ρ c (Proc.devRef .tc main_v13) := W10_of_ne m ρ c main_v13 (by decide)
    _ = W8 m ρ c (Proc.devRef .tc main_v13) := host4_keep (W8 m ρ c) main_v13 (by decide) (by decide) (by decide) (by decide)
    _ = W7 m ρ c (Proc.devRef .tc main_v13) := W8_of_ne m ρ c main_v13 (by decide)
    _ = W6 m ρ c (Proc.devRef .tc main_v13) := host3_keep (W6 m ρ c) main_v13 (by decide) (by decide) (by decide)
    _ = _ := W6_v13 m ρ c

/-! ## The second branch -/

theorem W6_arg2 : W6 m ρ c (Proc.devRef .tc main_arg2) = aT m c :=
  W6_input m ρ c main_arg2 (by decide) (by decide) (by decide) (by decide) (by decide) (by decide) (by decide) (by decide)
    (by decide) (by decide) (by decide) (by decide) (by decide) (by decide)
theorem W6_arg3 : W6 m ρ c (Proc.devRef .tc main_arg3) = xT m c :=
  W6_input m ρ c main_arg3 (by decide) (by decide) (by decide) (by decide) (by decide) (by decide) (by decide) (by decide)
    (by decide) (by decide) (by decide) (by decide) (by decide) (by decide)
theorem W6_arg4 : W6 m ρ c (Proc.devRef .tc main_arg4) = w1 m c :=
  W6_input m ρ c main_arg4 (by decide) (by decide) (by decide) (by decide) (by decide) (by decide) (by decide) (by decide)
    (by decide) (by decide) (by decide) (by decide) (by decide) (by decide)
theorem W6_arg5 : W6 m ρ c (Proc.devRef .tc main_arg5) = w2 m c :=
  W6_input m ρ c main_arg5 (by decide) (by decide) (by decide) (by decide) (by decide) (by decide) (by decide) (by decide)
    (by decide) (by decide) (by decide) (by decide) (by decide) (by decide)
theorem W6_arg6 : W6 m ρ c (Proc.devRef .tc main_arg6) = w3 m c :=
  W6_input m ρ c main_arg6 (by decide) (by decide) (by decide) (by decide) (by decide) (by decide) (by decide) (by decide)
    (by decide) (by decide) (by decide) (by decide) (by decide) (by decide)

theorem V7_arg2 : V7 m ρ c main_arg2 = aT m c :=
  (host3_keep (W6 m ρ c) main_arg2 (by decide) (by decide) (by decide)).trans (W6_arg2 m ρ c)

theorem V7_v16 : V7 m ρ c main_v16 = denseProd (xT m c) (tr (w1 m c)) :=
  (host3_v16 (W6 m ρ c)).trans
    (congrArg₂ (fun (x : Mat 10000 256) (w : Mat 256 256) => denseProd x (tr w)) (W6_arg3 m ρ c) (W6_arg4 m ρ c))

theorem W8_v17_0 : W8 m ρ c (Proc.devRef .tc main_v17_0) = h1 (aT m c) (xT m c) (w1 m c) :=
  (W8_arr m ρ c 2).trans ((final3 (V7 m ρ) c).trans
    (congrArg₂ (fun (a : Mat 10000 10000) (h : Mat 10000 256) => relu (denseProd a h)) (V7_arg2 m ρ c) (V7_v16 m ρ c)))

theorem W8_v17_1 : W8 m ρ c (Proc.devRef .tc main_v17_1) = aT m c :=
  (W8_arr m ρ c 3).trans ((final3c (V7 m ρ) c).trans (V7_arg2 m ρ c))

theorem W8_arg5 : W8 m ρ c (Proc.devRef .tc main_arg5) = w2 m c :=
  (W8_of_ne m ρ c main_arg5 (by decide)).trans
    ((host3_keep (W6 m ρ c) main_arg5 (by decide) (by decide) (by decide)).trans (W6_arg5 m ρ c))

theorem V9_v21 : V9 m ρ c main_v21 = denseProd (h1 (aT m c) (xT m c) (w1 m c)) (tr (w2 m c)) :=
  (host4_v21 (W8 m ρ c)).trans
    (congrArg₂ (fun (h : Mat 10000 256) (w : Mat 128 256) => denseProd h (tr w)) (W8_v17_0 m ρ c) (W8_arg5 m ρ c))

theorem V9_v17_1 : V9 m ρ c main_v17_1 = aT m c :=
  (host4_keep (W8 m ρ c) main_v17_1 (by decide) (by decide) (by decide) (by decide)).trans (W8_v17_1 m ρ c)

theorem W10_v22 : W10 m ρ c (Proc.devRef .tc main_v22) = h2 (aT m c) (h1 (aT m c) (xT m c) (w1 m c)) (w2 m c) :=
  (W10_arr m ρ c 2).trans ((final4 (V9 m ρ) c).trans
    (congrArg₂ (fun (a : Mat 10000 10000) (h : Mat 10000 128) => relu (denseProd a h)) (V9_v17_1 m ρ c) (V9_v21 m ρ c)))

theorem W10_v17_1 : W10 m ρ c (Proc.devRef .tc main_v17_1) = aT m c :=
  (W10_arr m ρ c 0).trans (((dat4 (V9 m ρ) c).arrAt_in 0 rfl _).trans ((A_eq4 (V9 m ρ) c 0).trans (V9_v17_1 m ρ c)))

theorem W10_arg6 : W10 m ρ c (Proc.devRef .tc main_arg6) = w3 m c :=
  calc W10 m ρ c (Proc.devRef .tc main_arg6)
    _ = W9 m ρ c (Proc.devRef .tc main_arg6) := W10_of_ne m ρ c main_arg6 (by decide)
    _ = W8 m ρ c (Proc.devRef .tc main_arg6) := host4_keep (W8 m ρ c) main_arg6 (by decide) (by decide) (by decide) (by decide)
    _ = W7 m ρ c (Proc.devRef .tc main_arg6) := W8_of_ne m ρ c main_arg6 (by decide)
    _ = W6 m ρ c (Proc.devRef .tc main_arg6) := host3_keep (W6 m ρ c) main_arg6 (by decide) (by decide) (by decide)
    _ = w3 m c := W6_arg6 m ρ c

theorem V11_v26 : V11 m ρ c main_v26
    = denseProd (h2 (aT m c) (h1 (aT m c) (xT m c) (w1 m c)) (w2 m c)) (tr (w3 m c)) :=
  (host5_v26 (W10 m ρ c)).trans
    (congrArg₂ (fun (h : Mat 10000 128) (w : Mat 64 128) => denseProd h (tr w)) (W10_v22 m ρ c) (W10_arg6 m ρ c))

theorem V11_v17_1 : V11 m ρ c main_v17_1 = aT m c :=
  (host5_keep (W10 m ρ c) main_v17_1 (by decide) (by decide) (by decide) (by decide)).trans (W10_v17_1 m ρ c)

theorem W12_v27 : W12 m ρ c (Proc.devRef .tc main_v27) = kerBranch (aT m c) (xT m c) (w1 m c) (w2 m c) (w3 m c) :=
  (W12_arr m ρ c 2).trans ((final5 (V11 m ρ) c).trans
    (congrArg₂ (fun (a : Mat 10000 10000) (h : Mat 10000 64) => denseProd a h) (V11_v17_1 m ρ c) (V11_v26 m ρ c)))

end Cert.KernelIdeal.Hand

end
-- ==== Proof.lean ====
/-
  A three-layer graph convolution, two branches: the tiled kernel against the plain reference, on the extended reals.

  Each layer is relu ((A · H) · Wᵀ) in the reference. The kernel folds the weight into the features first, on the host,
  and its launches compute relu (A · (H · Wᵀ)) a slab of rows at a time (the last layer without the rectifier); the
  first launch also keeps a bf16 copy of A for the other two, which on the extended reals is A. The two bracketings of
  the triple product agree when every entry is a real number, which the precondition gives for the inputs and which
  sums, products and the rectifier keep. So both programs end with the same two arrays.
-/
import proofs.«164636_j34187939676601_2_alg».proof.Defs
import proofs.«164636_j34187939676601_2_alg».proof.Proof.Gen.Kernel
import proofs.«164636_j34187939676601_2_alg».proof.Proof.Gen.Kernel.Frame
import proofs.«164636_j34187939676601_2_alg».proof.Proof.Gen.KernelIdeal
import proofs.«164636_j34187939676601_2_alg».proof.Proof.Gen.KernelIdeal.Frame
import proofs.«164636_j34187939676601_2_alg».proof.Proof.Gen.ReferenceIdeal
import proofs.«164636_j34187939676601_2_alg».proof.Proof.Gen.ReferenceIdeal.Run
import proofs.«164636_j34187939676601_2_alg».proof.Proof.Gen.Pre_finite_inputs
import proofs.«164636_j34187939676601_2_alg».proof.Proof.GcnMath
import proofs.«164636_j34187939676601_2_alg».proof.Proof.Finite
import proofs.«164636_j34187939676601_2_alg».proof.Proof.RefValue
import proofs.«164636_j34187939676601_2_alg».proof.Proof.KernelRun
import proofs.«164636_j34187939676601_2_alg».proof.Proof.KernelFold
import Idealize.ShloMosaic.Adequacy
import Idealize.ShloMosaic.Init

noncomputable section

namespace Cert.Proof

open Idealize.ShloMosaic Idealize.SL.Sem Cert.Gcn Cert.LibFinite

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with `kerBranch` of each branch's inputs: the kernel by the fold through its launches, the
    reference because its bracketing agrees with the kernel's on real-valued inputs. -/
theorem algebraic : Cert.algebraic_KernelIdeal_ReferenceIdeal := by
  intro m ρ m' ρ' hpre hagree
  refine ⟨fun c => kerBranch (Cert.KernelIdeal.Hand.aS m c) (Cert.KernelIdeal.Hand.xS m c) (Cert.KernelIdeal.Hand.w1 m c)
        (Cert.KernelIdeal.Hand.w2 m c) (Cert.KernelIdeal.Hand.w3 m c),
      fun c => kerBranch (Cert.KernelIdeal.Hand.aT m c) (Cert.KernelIdeal.Hand.xT m c) (Cert.KernelIdeal.Hand.w1 m c)
        (Cert.KernelIdeal.Hand.w2 m c) (Cert.KernelIdeal.Hand.w3 m c), ?_, ?_⟩
  · refine (θ_run Cert.KernelIdeal.defs _ _).mono (fun r h c => ?_) (Cert.KernelIdeal.Hand.run_fold m ρ)
    obtain ⟨h13, h27, hargs⟩ := h c
    exact ⟨h13.trans (Cert.KernelIdeal.Hand.W12_v13 m ρ c), h27.trans (Cert.KernelIdeal.Hand.W12_v27 m ρ c), hargs⟩
  · refine (θ_run Cert.ReferenceIdeal.defs _ _).mono (fun r h c => ?_) (Cert.ReferenceIdeal.Value.run (F := Ideal) m' ρ')
    obtain ⟨h10, h21, hargs⟩ := h c
    obtain ⟨e0, e1, e2, e3, e4, e5, e6⟩ := hagree c
    obtain ⟨r0, r1, r2, r3, r4, r5, r6⟩ := Cert.Pre_finite_inputs.Hand.allReal_of_fn _ _ _ _ _ _ _ (hpre c)
    refine ⟨h10.trans ?_, h21.trans ?_, hargs⟩
    · rw [Cert.ReferenceIdeal.Hand.branch_term, e0, e1, e4, e5, e6]
      exact (branch_eq _ _ _ _ _ r0 r1 r4 r5 r6).symm
    · rw [Cert.ReferenceIdeal.Hand.branch_term, e2, e3, e4, e5, e6]
      exact (branch_eq _ _ _ _ _ r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
